-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x4096 : Shape := ⟨3, ![8, 3, 4096]⟩
abbrev S8x256 : Shape := ⟨2, ![8, 256]⟩
abbrev S_ : Shape := ⟨0, ![]⟩

class Facts : Prop where
  bcast_S_S8x3x4096 : S_.BroadcastsInDim S8x3x4096 (![] : Fin 0 → Fin S8x3x4096.rank)
  reducesTo_S8x3x4096_S_d0_1_2 : S8x3x4096.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_

variable [Facts]

def fn_part1 {F : FTy → Type} [FloatOps F] (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  main_v18

def fn {F : FTy → Type} [FloatOps F] (main_arg0 : FVec F S8x3x4096 .f32) (main_arg1 : FVec F S8x3x4096 .f32) (main_arg2 : FVec F S8x256 .f32) (main_arg3 : FVec F S8x256 .f32) : IVec S_ 1 :=
  let main_v0 : FVec F S8x3x4096 .f32 := Host.absf main_arg0
  let main_cst : FVec F S_ .f32 := constant S_ .f32 0x7F800000#32
  let main_v1 : FVec F S8x3x4096 .f32 := broadcastInDim S8x3x4096 ![] bcast_S_S8x3x4096 main_cst
  let main_v2 : IVec S8x3x4096 1 := cmpf .olt main_v0 main_v1
  let main_c : IVec S_ 1 := constantI S_ 1 1#1
  let main_v3 : IVec S_ 1 := (fun x v => Host.reduce IntOp.andi x v reducesTo_S8x3x4096_S_d0_1_2 h_S_) main_v2 main_c
  let main_v4 : FVec F S8x3x4096 .f32 := Host.absf main_arg1
  let main_cst_0 : FVec F S_ .f32 := constant S_ .f32 0x7F800000#32
  let main_v5 : FVec F S8x3x4096 .f32 := broadcastInDim S8x3x4096 ![] bcast_S_S8x3x4096 main_cst_0
  let main_v6 : IVec S8x3x4096 1 := cmpf .olt main_v4 main_v5
  let main_c_1 : IVec S_ 1 := constantI S_ 1 1#1
  let main_v7 : IVec S_ 1 := (fun x v => Host.reduce IntOp.andi x v reducesTo_S8x3x4096_S_d0_1_2 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S8x256 .f32 := Host.absf main_arg3
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_v13 main_v16
-- ==== Kernel.lean ====
abbrev S8x3x4096 : Shape := ⟨3, ![8, 3, 4096]⟩
abbrev S8x256 : Shape := ⟨2, ![8, 256]⟩
abbrev S8x1x4096 : Shape := ⟨3, ![8, 1, 4096]⟩
abbrev S1x3x4096 : Shape := ⟨3, ![1, 3, 4096]⟩
abbrev S1x3x1024 : Shape := ⟨3, ![1, 3, 1024]⟩
abbrev S1x1x4096 : Shape := ⟨3, ![1, 1, 4096]⟩
abbrev S1x1x1024 : Shape := ⟨3, ![1, 1, 1024]⟩
abbrev S1x4096 : Shape := ⟨2, ![1, 4096]⟩
abbrev S3x4096 : Shape := ⟨2, ![3, 4096]⟩
abbrev S3x1024 : Shape := ⟨2, ![3, 1024]⟩
abbrev S4096 : Shape := ⟨1, ![4096]⟩
abbrev S1024 : Shape := ⟨1, ![1024]⟩
abbrev S1x1024 : Shape := ⟨2, ![1, 1024]⟩
abbrev S5x4096 : Shape := ⟨2, ![5, 4096]⟩
abbrev S5x1024 : Shape := ⟨2, ![5, 1024]⟩
abbrev S1024x4096 : Shape := ⟨2, ![1024, 4096]⟩
abbrev S1024x1 : Shape := ⟨2, ![1024, 1]⟩
abbrev S8x4096 : Shape := ⟨2, ![8, 4096]⟩
abbrev S_ : Shape := ⟨0, ![]⟩

abbrev nBuf : Space → Nat
  | .hbm => 33
  | .vmem => 9
  | .smem => 0
  | _ => 0

abbrev bufTy : (tb : Table) → Fin (tcTables nBuf tb) → BufTy
  | .hbm, ⟨0, _⟩ => ⟨S8x3x4096, .f32⟩
  | .hbm, ⟨1, _⟩ => ⟨S8x3x4096, .f32⟩
  | .hbm, ⟨2, _⟩ => ⟨S8x256, .f32⟩
  | .hbm, ⟨3, _⟩ => ⟨S8x256, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x256, .f32⟩
  | .hbm, ⟨19, _⟩ => ⟨S8x256, .f32⟩
  | .hbm, ⟨20, _⟩ => ⟨S8x256, .f32⟩
  | .hbm, ⟨21, _⟩ => ⟨S8x256, .f32⟩
  | .hbm, ⟨22, _⟩ => ⟨S8x256, .f32⟩
  | .hbm, ⟨23, _⟩ => ⟨S8x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1x3x4096, .f32⟩
  | .local _ .vmem, ⟨1, _⟩ => ⟨S1x3x4096, .f32⟩
  | .local _ .vmem, ⟨2, _⟩ => ⟨S1x3x1024, .f32⟩
  | .local _ .vmem, ⟨3, _⟩ => ⟨S1x3x1024, .f32⟩
  | .local _ .vmem, ⟨4, _⟩ => ⟨S1x1x4096, .f32⟩
  | .local _ .vmem, ⟨5, _⟩ => ⟨S1x1x4096, .f32⟩
  | .local _ .vmem, ⟨6, _⟩ => ⟨S1x1x1024, .f32⟩
  | .local _ .vmem, ⟨7, _⟩ => ⟨S1x1x1024, .f32⟩
  | .local _ .vmem, ⟨8, _⟩ => ⟨S1x4096, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_cst_7 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_18 : BitVec 32 := 0#32
  let v36 : BitVec 1 := Scalar.cmpi .ne v35 c0_i32_18
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x4096_S4096 : S3x4096.Reduces [0] S4096
  shapeCasts_S4096_S1x4096 : S4096.ShapeCasts S1x4096
  reduces_S3x1024_S1024 : S3x1024.Reduces [0] S1024
  shapeCasts_S1024_S1x1024 : S1024.ShapeCasts S1x1024
  concatenates_S3x4096_S1x4096_S1x4096_S5x4096_d0 : Shape.Concatenates [S3x4096, S1x4096, S1x4096] S5x4096 0
  bitsLt_bf16_f32 : FTy.bits .bf16 < FTy.bits .f32
  concatenates_S3x1024_S1x1024_S1x1024_S5x1024_d0 : Shape.Concatenates [S3x1024, S1x1024, S1x1024] S5x1024 0
  reduces_S1024x4096_S1024 : S1024x4096.Reduces [1] S1024
  shapeCasts_S1024_S1024x1 : S1024.ShapeCasts S1024x1
  transposes_S1024x1_p1_0_S1x1024 : S1024x1.Transposes [1, 0] S1x1024
  shapeCasts_S1x1024_S1024 : S1x1024.ShapeCasts S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  reduces_S1024x4096_S4096 : S1024x4096.Reduces [0] S4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x4096_S4096 : S1x4096.ShapeCasts S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  reducesTo_S8x4096_S_d0_1 : S8x4096.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_
  dot_S5x1024_S5x4096_S1024x4096_0_0_1_1_n_n_wf : DotDims.WF S5x1024 S5x4096 S1024x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S8x3x4096.size a
  hwx0_0 : ∀ i : grid0.Coords, EltTy.bits .f32 = 32 ∨ (Rect.block (s := S8x3x4096) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x4096.size a
  hwx0_3 : ∀ i : grid0.Coords, EltTy.bits .f32 = 32 ∨ (Rect.block (s := S8x1x4096) S1x1x1024.size (cc0_transform_3 i) (hinb0_3 i)).WholeWords (EltTy.packing .f32)

variable [Facts₀]

def dot_S5x1024_S5x4096_S1024x4096_0_0_1_1_n_n : DotDims S5x1024 S5x4096 S1024x4096 where
  lhsContracting := [0]
  rhsContracting := [0]
  lhsNonContracting := [1]
  rhsNonContracting := [1]
  lhsBatch := []
  rhsBatch := []
  wf := dot_S5x1024_S5x4096_S1024x4096_0_0_1_1_n_n_wf

abbrev win0_0 : Pipeline.Window sig grid0 :=
  Pipeline.Window.ofSpec (Memref.whole main_arg0) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun _ => false | ⟨_ + 4, h⟩ => absurd h (Nat.not_lt.2 (Nat.le_add_left _ _))

class Facts : Prop extends Facts₀ where

variable [Facts]
-- ==== ReferenceIdeal.lean ====
abbrev S8x3x4096 : Shape := ⟨3, ![8, 3, 4096]⟩
abbrev S8x256 : Shape := ⟨2, ![8, 256]⟩
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x3x4096, .f32⟩
  | .hbm, ⟨2, _⟩ => ⟨S8x256, .f32⟩
  | .hbm, ⟨3, _⟩ => ⟨S8x256, .f32⟩
  | .hbm, ⟨4, _⟩ => ⟨S8x4096x3, .f32⟩
  | .hbm, ⟨5, _⟩ => ⟨S8x4096x3, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x3, .f32⟩
  | .hbm, ⟨10, _⟩ => ⟨S_, .f32⟩
  | .hbm, ⟨11, _⟩ => ⟨S8x4096, .f32⟩
  | .hbm, ⟨12, _⟩ => ⟨S8x4096x4096, .f32⟩
  | .hbm, ⟨13, _⟩ => ⟨S8x4096x1, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x256, .f32⟩
  | .hbm, ⟨37, _⟩ => ⟨S8x256, .f32⟩
  | .hbm, ⟨38, _⟩ => ⟨S8x256, .f32⟩
  | .hbm, ⟨39, _⟩ => ⟨S8x256, .f32⟩
  | .hbm, ⟨40, _⟩ => ⟨S8x256, .f32⟩
  | .hbm, ⟨41, _⟩ => ⟨S8x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_cst_12 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  transposes_S8x3x4096_S8x4096x3_0_2_1 : S8x3x4096.Transposes [0, 2, 1] S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  bcast_S_S8x256 : S_.BroadcastsInDim S8x256 (![] : Fin 0 → Fin S8x256.rank)
  reducesTo_S8x256_S_d0_1 : S8x256.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Kernel.Conds.lean ====
/-
  The body's three branches over the grid, and what the body is run on.

  The grid is 8 batches by 4 tiles, point `t` being batch `t / 4`, tile `t % 4`. The body stores the tile's column
  minima into its scratch at a batch's first tile, folds them into the scratch at the later tiles, and copies the
  scratch into the first output's buffer at the last tile: three conditions on the tile number, here in closed form.
  At the other tiles that output's buffer is left untouched and is not written back.
-/
import proofs.«144960_j69045894250969_2_alg».proof.Proof.Gen.Kernel.Frame
import proofs.«144960_j69045894250969_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the batch's first tile", as the body computes it from the tile coordinate. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is a later tile". -/
abbrev condLater (i : grid0.Coords) : Prop := (Scalar.cmpi .ne (Scalar.extui (Scalar.cmpi .sgt (BitVec.ofNat 32 (i 1).val) 0#32)) 0#32) = 1#1
theorem hcondLater : ∀ t : Fin cfg0.N, condLater (grid0.coords t) ↔ ¬ t.val % 4 = 0 :=
  (by decide +kernel : ∀ t : Fin grid0.N, condLater (grid0.coords t) ↔ ¬ t.val % 4 = 0)

/-- "This is the batch's last tile". -/
abbrev condLast (i : grid0.Coords) : Prop := k0_cond3 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt3 : ∀ t : Fin cfg0.N, cfg0.idle 3 (grid0.coords t) = false := by decide +kernel
/-- Away from a batch's last tile the first output's window is idle, -/
theorem idleAt2 : ∀ t : Fin cfg0.N, ¬ condLast (grid0.coords t) → cfg0.idle 2 (grid0.coords t) = true := by decide +kernel
/-- and is not written back; -/
theorem noFlush2 : ∀ t : Fin cfg0.N, ¬ condLast (grid0.coords t) → (cfg0.win 2).flush t = false := by decide +kernel
/-- at the last tile it is live. -/
theorem liveAt2 : ∀ t : Fin cfg0.N, condLast (grid0.coords t) → cfg0.idle 2 (grid0.coords t) = false := by decide +kernel

/-! ## The memrefs the body is called with -/

abbrev ms0 (t : Fin cfg0.N) : Memref sig .tc .vmem S1x3x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
/-- The scratch: a whole buffer of the kernel's own, carried from tile to tile. -/
abbrev scM : Memref sig .tc .vmem S1x4096 .f32 := Memref.whole cc0_scratch0
abbrev VS : View sig .tc .vmem S1x4096 .f32 := scM.view
/-- One staging buffer of each output, through which its contents are stated. -/
abbrev VO2 : View sig .tc .vmem S1x1x4096 .f32 := (Memref.whole cc0_stg2_0 : Memref sig .tc .vmem S1x1x4096 .f32).view
abbrev VO3 : View sig .tc .vmem S1x1x1024 .f32 := (Memref.whole cc0_stg3_0 : Memref sig .tc .vmem S1x1x1024 .f32).view

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.Kernel.RunFirst.lean ====
/-
  The body run at one of its three kinds of grid point, on any whole staging memrefs.
-/
import proofs.«144960_j69045894250969_2_alg».proof.Proof.Kernel.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a batch's FIRST tile the body stores the tile's row minima into the second output's buffer and the tile's column
    minima into the scratch, whatever the scratch held; the first output's buffer it leaves untouched.
    The lists are what each buffer ends with, as the stores the run met (last first). -/
noncomputable def runFirst (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i)
    (x0 : Vec F S1x3x4096 .f32) (x1 : Vec F S1x3x1024 .f32) :
    Σ' (L3 : List (View.Piece (Elt F) S1x1x1024 .f32)), { LS : List (View.Piece (Elt F) S1x4096 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi2 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Body

end
-- ==== Proof.Kernel.RunLater.lean ====
/-
  The body run at one of its three kinds of grid point, on any whole staging memrefs.
-/
import proofs.«144960_j69045894250969_2_alg».proof.Proof.Kernel.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a LATER tile that is not the last the body stores the tile's row minima into the second output's buffer and
    folds the tile's column minima into what the scratch held (`xs`); the first output's buffer it leaves untouched.
    The lists are what each buffer ends with, as the stores the run met (last first). -/
noncomputable def runLater (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i)
    (x0 : Vec F S1x3x4096 .f32) (x1 : Vec F S1x3x1024 .f32) (xs : Vec F S1x4096 .f32) :
    Σ' (L3 : List (View.Piece (Elt F) S1x1x1024 .f32)), { LS : List (View.Piece (Elt F) S1x4096 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi2 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Body

end
-- ==== Proof.Kernel.RunLast.lean ====
/-
  The body run at one of its three kinds of grid point, on any whole staging memrefs.
-/
import proofs.«144960_j69045894250969_2_alg».proof.Proof.Kernel.RunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a batch's LAST tile the body does the same and then copies the scratch into the first output's buffer.
    The lists are what each buffer ends with, as the stores the run met (last first). -/
noncomputable def runLast (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i)
    (x0 : Vec F S1x3x4096 .f32) (x1 : Vec F S1x3x1024 .f32) (xs : Vec F S1x4096 .f32) :
    Σ' (L2 : List (View.Piece (Elt F) S1x1x4096 .f32)) (L3 : List (View.Piece (Elt F) S1x1x1024 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Body

end
-- ==== Proof.Kernel.Frame.lean ====
/-
  The frame of the program: the region runs at every grid point, and the arrays end as the proof data says.

  What the body leaves is stated point by point: the second output's buffer holds the point's row minima, the scratch
  the running column minima of the batch so far (started at the batch's first tile, folded at the later ones), and
  the first output's buffer, at a batch's last tile, a copy of the scratch. The scratch is carried by the region's
  invariant from each point to the next.
-/
import proofs.«144960_j69045894250969_2_alg».proof.Proof.Kernel.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

theorem cover3_First (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) (y : S1x1x1024.Idx) :
    ∃ pc ∈ (runFirst c i arg2 harg2 arg3 harg3 arg4 harg4 arg5 harg5 arg6 harg6 hc1 hc2 hc3 x0 x1).1, y ∈ pc.1.set :=
  View.cover_of_tiledL (runFirst c i arg2 harg2 arg3 harg3 arg4 harg4 arg5 harg5 arg6 harg6 hc1 hc2 hc3 x0 x1).1 S1x1x1024.size (by sl_kernel_rfl) y
/-- The second output's buffer after a first tile. -/
def out3_First (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) : Vec F S1x1x1024 .f32 :=
  VO3.read (Elt F) (VO3.writes (Elt F) VO3.junk (runFirst c i arg2 harg2 arg3 harg3 arg4 harg4 arg5 harg5 arg6 harg6 hc1 hc2 hc3 x0 x1).1)
theorem scover_First (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) (y : S1x4096.Idx) :
    ∃ pc ∈ (runFirst c i arg2 harg2 arg3 harg3 arg4 harg4 arg5 harg5 arg6 harg6 hc1 hc2 hc3 x0 x1).2.1, y ∈ pc.1.set :=
  View.cover_of_tiledL (runFirst c i arg2 harg2 arg3 harg3 arg4 harg4 arg5 harg5 arg6 harg6 hc1 hc2 hc3 x0 x1).2.1 S1x4096.size (by sl_kernel_rfl) y
/-- The scratch after a first tile. -/
def sout_First (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) : Vec F S1x4096 .f32 :=
  VS.read (Elt F) (VS.writes (Elt F) VS.junk (runFirst c i arg2 harg2 arg3 harg3 arg4 harg4 arg5 harg5 arg6 harg6 hc1 hc2 hc3 x0 x1).2.1)

theorem cover3_Later (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) (y : S1x1x1024.Idx) :
    ∃ pc ∈ (runLater c i arg2 harg2 arg3 harg3 arg4 harg4 arg5 harg5 arg6 harg6 hc1 hc2 hc3 x0 x1 xs).1, y ∈ pc.1.set :=
  View.cover_of_tiledL (runLater c i arg2 harg2 arg3 harg3 arg4 harg4 arg5 harg5 arg6 harg6 hc1 hc2 hc3 x0 x1 xs).1 S1x1x1024.size (by sl_kernel_rfl) y
/-- The second output's buffer after a later tile. -/
def out3_Later (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) : Vec F S1x1x1024 .f32 :=
  VO3.read (Elt F) (VO3.writes (Elt F) VO3.junk (runLater c i arg2 harg2 arg3 harg3 arg4 harg4 arg5 harg5 arg6 harg6 hc1 hc2 hc3 x0 x1 xs).1)
theorem scover_Later (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) (y : S1x4096.Idx) :
    ∃ pc ∈ (runLater c i arg2 harg2 arg3 harg3 arg4 harg4 arg5 harg5 arg6 harg6 hc1 hc2 hc3 x0 x1 xs).2.1, y ∈ pc.1.set :=
  View.cover_of_tiledL (runLater c i arg2 harg2 arg3 harg3 arg4 harg4 arg5 harg5 arg6 harg6 hc1 hc2 hc3 x0 x1 xs).2.1 S1x4096.size (by sl_kernel_rfl) y
/-- The scratch after a later tile, over what it held (`xs`). -/
def sout_Later (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) : Vec F S1x4096 .f32 :=
  VS.read (Elt F) (VS.writes (Elt F) VS.junk (runLater c i arg2 harg2 arg3 harg3 arg4 harg4 arg5 harg5 arg6 harg6 hc1 hc2 hc3 x0 x1 xs).2.1)

theorem cover2_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) (y : S1x1x4096.Idx) :
    ∃ pc ∈ (runLast c i arg2 harg2 arg3 harg3 arg4 harg4 arg5 harg5 arg6 harg6 hc1 hc2 hc3 x0 x1 xs).1, y ∈ pc.1.set :=
  View.cover_of_tiledL (runLast c i arg2 harg2 arg3 harg3 arg4 harg4 arg5 harg5 arg6 harg6 hc1 hc2 hc3 x0 x1 xs).1 S1x1x4096.size (by sl_kernel_rfl) y
/-- The first output's buffer after a last tile. -/
def out2_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) : Vec F S1x1x4096 .f32 :=
  VO2.read (Elt F) (VO2.writes (Elt F) VO2.junk (runLast c i arg2 harg2 arg3 harg3 arg4 harg4 arg5 harg5 arg6 harg6 hc1 hc2 hc3 x0 x1 xs).1)
theorem cover3_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) (y : S1x1x1024.Idx) :
    ∃ pc ∈ (runLast c i arg2 harg2 arg3 harg3 arg4 harg4 arg5 harg5 arg6 harg6 hc1 hc2 hc3 x0 x1 xs).2.1, y ∈ pc.1.set :=
  View.cover_of_tiledL (runLast c i arg2 harg2 arg3 harg3 arg4 harg4 arg5 harg5 arg6 harg6 hc1 hc2 hc3 x0 x1 xs).2.1 S1x1x1024.size (by sl_kernel_rfl) y
/-- The second output's buffer after a last tile. -/
def out3_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) : Vec F S1x1x1024 .f32 :=
  VO3.read (Elt F) (VO3.writes (Elt F) VO3.junk (runLast c i arg2 harg2 arg3 harg3 arg4 harg4 arg5 harg5 arg6 harg6 hc1 hc2 hc3 x0 x1 xs).2.1)
theorem scover_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) (y : S1x4096.Idx) :
    ∃ pc ∈ (runLast c i arg2 harg2 arg3 harg3 arg4 harg4 arg5 harg5 arg6 harg6 hc1 hc2 hc3 x0 x1 xs).2.2.1, y ∈ pc.1.set :=
  View.cover_of_tiledL (runLast c i arg2 harg2 arg3 harg3 arg4 harg4 arg5 harg5 arg6 harg6 hc1 hc2 hc3 x0 x1 xs).2.2.1 S1x4096.size (by sl_kernel_rfl) y
/-- The scratch after a last tile, over what it held. -/
def sout_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) : Vec F S1x4096 .f32 :=
  VS.read (Elt F) (VS.writes (Elt F) VS.junk (runLast c i arg2 harg2 arg3 harg3 arg4 harg4 arg5 harg5 arg6 harg6 hc1 hc2 hc3 x0 x1 xs).2.2.1)

/-- What stands for the first output's buffer at a point that leaves it untouched: nothing consults it, since the
    buffer is neither written back there nor read before it is next stored whole. -/
def idle2 : Vec F S1x1x4096 .f32 := VO2.read (Elt F) VO2.junk

/-! ## Point by point -/

/-- After the body at position `n`: the first output's buffer, the second output's buffer, the scratch. -/
def outsAt (c : Dev nD) : (n : ℕ) → n < cfg0.N → Vec F S1x1x4096 .f32 × Vec F S1x1x1024 .f32 × Vec F S1x4096 .f32
  | 0, hn =>
    have h0 : (⟨0, hn⟩ : Fin cfg0.N).val % 4 = 0 := Nat.zero_mod _
    have h3 : ¬ (⟨0, hn⟩ : Fin cfg0.N).val % 4 = 3 := fun h => absurd ((Nat.zero_mod 4).symm.trans h) (by decide)
    (idle2, out3_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr h0) (fun h => (hcondLater ⟨0, hn⟩).mp h h0) (fun h => h3 ((hcondLast ⟨0, hn⟩).mp h)) (iblk m c 0 ⟨0, hn⟩) (iblk m c 1 ⟨0, hn⟩),
      sout_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr h0) (fun h => (hcondLater ⟨0, hn⟩).mp h h0) (fun h => h3 ((hcondLast ⟨0, hn⟩).mp h)) (iblk m c 0 ⟨0, hn⟩) (iblk m c 1 ⟨0, hn⟩))
  | n + 1, hn =>
    if h0 : (n + 1) % 4 = 0 then
      have h3 : ¬ (n + 1) % 4 = 3 := by omega
      (idle2, out3_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => (hcondLater ⟨n + 1, hn⟩).mp h h0) (fun h => h3 ((hcondLast ⟨n + 1, hn⟩).mp h)) (iblk m c 0 ⟨n + 1, hn⟩) (iblk m c 1 ⟨n + 1, hn⟩),
        sout_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => (hcondLater ⟨n + 1, hn⟩).mp h h0) (fun h => h3 ((hcondLast ⟨n + 1, hn⟩).mp h)) (iblk m c 0 ⟨n + 1, hn⟩) (iblk m c 1 ⟨n + 1, hn⟩))
    else
      if h3 : (n + 1) % 4 = 3 then
        (out2_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) ((hcondLast ⟨n + 1, hn⟩).mpr h3) (iblk m c 0 ⟨n + 1, hn⟩) (iblk m c 1 ⟨n + 1, hn⟩) (outsAt c n (Nat.lt_of_succ_lt hn)).2.2,
          out3_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) ((hcondLast ⟨n + 1, hn⟩).mpr h3) (iblk m c 0 ⟨n + 1, hn⟩) (iblk m c 1 ⟨n + 1, hn⟩) (outsAt c n (Nat.lt_of_succ_lt hn)).2.2,
          sout_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) ((hcondLast ⟨n + 1, hn⟩).mpr h3) (iblk m c 0 ⟨n + 1, hn⟩) (iblk m c 1 ⟨n + 1, hn⟩) (outsAt c n (Nat.lt_of_succ_lt hn)).2.2)
      else
        (idle2, out3_Later c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) (fun h => h3 ((hcondLast ⟨n + 1, hn⟩).mp h)) (iblk m c 0 ⟨n + 1, hn⟩) (iblk m c 1 ⟨n + 1, hn⟩) (outsAt c n (Nat.lt_of_succ_lt hn)).2.2,
          sout_Later c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) (fun h => h3 ((hcondLast ⟨n + 1, hn⟩).mp h)) (iblk m c 0 ⟨n + 1, hn⟩) (iblk m c 1 ⟨n + 1, hn⟩) (outsAt c n (Nat.lt_of_succ_lt hn)).2.2)

theorem outsAt_First (c : Dev nD) (t : Fin cfg0.N) (h0 : t.val % 4 = 0) (h3 : ¬ t.val % 4 = 3) :
    outsAt m c t.val t.isLt = (idle2, out3_First c (grid0.coords t) (ms0 t) (hs0 t) (ms1 t) (hs1 t) (ms2 t) (hs2 t) (ms3 t) (hs3 t) scM (Memref.isWhole_whole _) ((hcondFirst t).mpr h0) (fun h => (hcondLater t).mp h h0) (fun h => h3 ((hcondLast t).mp h)) (iblk m c 0 t) (iblk m c 1 t),
      sout_First c (grid0.coords t) (ms0 t) (hs0 t) (ms1 t) (hs1 t) (ms2 t) (hs2 t) (ms3 t) (hs3 t) scM (Memref.isWhole_whole _) ((hcondFirst t).mpr h0) (fun h => (hcondLater t).mp h h0) (fun h => h3 ((hcondLast t).mp h)) (iblk m c 0 t) (iblk m c 1 t)) := by
  obtain ⟨n, hn⟩ := t
  cases n with
  | zero => exact rfl
  | succ n => exact (dif_pos h0).trans rfl

theorem outsAt_Later (c : Dev nD) (t : Fin cfg0.N) (h0 : ¬ t.val % 4 = 0) (h3 : ¬ t.val % 4 = 3) :
    outsAt m c t.val t.isLt = (idle2, out3_Later c (grid0.coords t) (ms0 t) (hs0 t) (ms1 t) (hs1 t) (ms2 t) (hs2 t) (ms3 t) (hs3 t) scM (Memref.isWhole_whole _) (fun h => h0 ((hcondFirst t).mp h)) ((hcondLater t).mpr h0) (fun h => h3 ((hcondLast t).mp h)) (iblk m c 0 t) (iblk m c 1 t) (outsAt m c (t.val - 1) (Nat.lt_of_le_of_lt (Nat.sub_le _ _) t.isLt)).2.2,
      sout_Later c (grid0.coords t) (ms0 t) (hs0 t) (ms1 t) (hs1 t) (ms2 t) (hs2 t) (ms3 t) (hs3 t) scM (Memref.isWhole_whole _) (fun h => h0 ((hcondFirst t).mp h)) ((hcondLater t).mpr h0) (fun h => h3 ((hcondLast t).mp h)) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h3).trans rfl)

theorem outsAt_Last (c : Dev nD) (t : Fin cfg0.N) (h0 : ¬ t.val % 4 = 0) (h3 : t.val % 4 = 3) :
    outsAt m c t.val t.isLt = (out2_Last c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2,
      out3_Last c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2,
      sout_Last c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h3).trans rfl)

/-- The region's invariant before position `n`: before the first point the scratch holds anything; afterwards what
    the point before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

/-- The arrays as the region finds them; after the body each input's buffer at its block, the outputs' at `outsAt`;
    the invariant carrying the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves3 (c : Dev nD) (t : Fin cfg0.N) :
    (dats m 0 c).leavesExact 3 t = owns (c : Thread nD τ) (ms3 t) fullShare ((outsAt m c t.val t.isLt).2.1) := by
  unfold Dat.leavesExact; rw [liveAt3 t, after3]
theorem leaves2_last (c : Dev nD) (t : Fin cfg0.N) (h : condLast (grid0.coords t)) :
    (dats m 0 c).leavesExact 2 t = owns (c : Thread nD τ) (ms2 t) fullShare ((outsAt m c t.val t.isLt).1) := by
  unfold Dat.leavesExact; rw [liveAt2 t h, after2]

set_option maxHeartbeats 4800000 in
/-- The body at any point: which kind of point it is decides the run; the invariant hands the run the scratch at
    what the point before left (at anything before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves3]
  have hN : t.val < 32 := lt_of_lt_of_eq t.isLt (show cfg0.N = 32 from N_0)
  by_cases h0 : t.val % 4 = 0
  · have h3 : ¬ t.val % 4 = 3 := by omega
    rw [Dat.leavesExact_idle (dats m 0 c) 2 t (idleAt2 t (fun h => h3 ((hcondLast t).mp h))) (noFlush2 t (fun h => h3 ((hcondLast t).mp h)))]
    rw [outsAt_First m c t h0 h3]
    unfold out3_First sout_First; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((hcondFirst t).mpr h0) (fun h => (hcondLater t).mp h h0) (fun h => h3 ((hcondLast t).mp h)) (iblk m c 0 t) (iblk m c 1 t)).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (scover_First c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover3_First c _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((hcondFirst t).mpr h0) (fun h => (hcondLater t).mp h h0) (fun h => h3 ((hcondLast t).mp h)) (iblk m c 0 t) (iblk m c 1 t)).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (scover_First c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover3_First c _ _ _ _ _ _ _ _ _ _ _ _ _ _ _ _)
  · have hz : t.val ≠ 0 := fun h => h0 (by rw [h])
    by_cases h3 : t.val % 4 = 3
    · rw [leaves2_last m c t ((hcondLast t).mpr h3)]
      rw [outsAt_Last m c t h0 h3]
      unfold out2_Last out3_Last sout_Last; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (fun h => h0 ((hcondFirst t).mp h)) ((hcondLater t).mpr h0) ((hcondLast t).mpr h3) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_Last c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_Last c _ _ _ _ _ _ _ _ _ _ _ _ _ _ _ _ _)
      unfold owns; iexists _; isplitr
      swap; · iexact H3
      ipureintro; exact View.read_writes_of_cover _ _ _ _ _ (cover3_Last c _ _ _ _ _ _ _ _ _ _ _ _ _ _ _ _ _)
    · rw [Dat.leavesExact_idle (dats m 0 c) 2 t (idleAt2 t (fun h => h3 ((hcondLast t).mp h))) (noFlush2 t (fun h => h3 ((hcondLast t).mp h)))]
      rw [outsAt_Later m c t h0 h3]
      unfold out3_Later sout_Later; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLater c (grid0.coords t) _ _ _ _ _ _ _ _ _ _ (fun h => h0 ((hcondFirst t).mp h)) ((hcondLater t).mpr h0) (fun h => h3 ((hcondLast t).mp h)) (iblk m c 0 t) (iblk m c 1 t) _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (scover_Later c _ _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover3_Later c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates without a fault; every array of the pipeline ends at what the
    proof data computes, every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdeal.Conds.lean ====
/-
  The body's three branches over the grid, and what the body is run on.

  The grid is 8 batches by 4 tiles, point `t` being batch `t / 4`, tile `t % 4`. The body stores the tile's column
  minima into its scratch at a batch's first tile, folds them into the scratch at the later tiles, and copies the
  scratch into the first output's buffer at the last tile: three conditions on the tile number, here in closed form.
  At the other tiles that output's buffer is left untouched and is not written back.
-/
import proofs.«144960_j69045894250969_2_alg».proof.Proof.Gen.KernelIdeal.Frame
import proofs.«144960_j69045894250969_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the batch's first tile", as the body computes it from the tile coordinate. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is a later tile". -/
abbrev condLater (i : grid0.Coords) : Prop := (Scalar.cmpi .ne (Scalar.extui (Scalar.cmpi .sgt (BitVec.ofNat 32 (i 1).val) 0#32)) 0#32) = 1#1
theorem hcondLater : ∀ t : Fin cfg0.N, condLater (grid0.coords t) ↔ ¬ t.val % 4 = 0 :=
  (by decide +kernel : ∀ t : Fin grid0.N, condLater (grid0.coords t) ↔ ¬ t.val % 4 = 0)

/-- "This is the batch's last tile". -/
abbrev condLast (i : grid0.Coords) : Prop := k0_cond3 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt3 : ∀ t : Fin cfg0.N, cfg0.idle 3 (grid0.coords t) = false := by decide +kernel
/-- Away from a batch's last tile the first output's window is idle, -/
theorem idleAt2 : ∀ t : Fin cfg0.N, ¬ condLast (grid0.coords t) → cfg0.idle 2 (grid0.coords t) = true := by decide +kernel
/-- and is not written back; -/
theorem noFlush2 : ∀ t : Fin cfg0.N, ¬ condLast (grid0.coords t) → (cfg0.win 2).flush t = false := by decide +kernel
/-- at the last tile it is live. -/
theorem liveAt2 : ∀ t : Fin cfg0.N, condLast (grid0.coords t) → cfg0.idle 2 (grid0.coords t) = false := by decide +kernel

/-! ## The memrefs the body is called with -/

abbrev ms0 (t : Fin cfg0.N) : Memref sig .tc .vmem S1x3x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
/-- The scratch: a whole buffer of the kernel's own, carried from tile to tile. -/
abbrev scM : Memref sig .tc .vmem S1x4096 .f32 := Memref.whole cc0_scratch0
abbrev VS : View sig .tc .vmem S1x4096 .f32 := scM.view
/-- One staging buffer of each output, through which its contents are stated. -/
abbrev VO2 : View sig .tc .vmem S1x1x4096 .f32 := (Memref.whole cc0_stg2_0 : Memref sig .tc .vmem S1x1x4096 .f32).view
abbrev VO3 : View sig .tc .vmem S1x1x1024 .f32 := (Memref.whole cc0_stg3_0 : Memref sig .tc .vmem S1x1x1024 .f32).view

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KernelIdeal.RunFirst.lean ====
/-
  The body run at one of its three kinds of grid point, on any whole staging memrefs.
-/
import proofs.«144960_j69045894250969_2_alg».proof.Proof.KernelIdeal.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a batch's FIRST tile the body stores the tile's row minima into the second output's buffer and the tile's column
    minima into the scratch, whatever the scratch held; the first output's buffer it leaves untouched.
    The lists are what each buffer ends with, as the stores the run met (last first). -/
noncomputable def runFirst (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i)
    (x0 : Vec F S1x3x4096 .f32) (x1 : Vec F S1x3x1024 .f32) :
    Σ' (L3 : List (View.Piece (Elt F) S1x1x1024 .f32)), { LS : List (View.Piece (Elt F) S1x4096 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi2 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Body

end
-- ==== Proof.KernelIdeal.RunLater.lean ====
/-
  The body run at one of its three kinds of grid point, on any whole staging memrefs.
-/
import proofs.«144960_j69045894250969_2_alg».proof.Proof.KernelIdeal.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a LATER tile that is not the last the body stores the tile's row minima into the second output's buffer and
    folds the tile's column minima into what the scratch held (`xs`); the first output's buffer it leaves untouched.
    The lists are what each buffer ends with, as the stores the run met (last first). -/
noncomputable def runLater (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i)
    (x0 : Vec F S1x3x4096 .f32) (x1 : Vec F S1x3x1024 .f32) (xs : Vec F S1x4096 .f32) :
    Σ' (L3 : List (View.Piece (Elt F) S1x1x1024 .f32)), { LS : List (View.Piece (Elt F) S1x4096 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi2 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Body

end
-- ==== Proof.KernelIdeal.RunLast.lean ====
/-
  The body run at one of its three kinds of grid point, on any whole staging memrefs.
-/
import proofs.«144960_j69045894250969_2_alg».proof.Proof.KernelIdeal.RunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a batch's LAST tile the body does the same and then copies the scratch into the first output's buffer.
    The lists are what each buffer ends with, as the stores the run met (last first). -/
noncomputable def runLast (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i)
    (x0 : Vec F S1x3x4096 .f32) (x1 : Vec F S1x3x1024 .f32) (xs : Vec F S1x4096 .f32) :
    Σ' (L2 : List (View.Piece (Elt F) S1x1x4096 .f32)) (L3 : List (View.Piece (Elt F) S1x1x1024 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Body

end
-- ==== Proof.KernelIdeal.Frame.lean ====
/-
  The frame of the program: the region runs at every grid point, and the arrays end as the proof data says.

  What the body leaves is stated point by point: the second output's buffer holds the point's row minima, the scratch
  the running column minima of the batch so far (started at the batch's first tile, folded at the later ones), and
  the first output's buffer, at a batch's last tile, a copy of the scratch. The scratch is carried by the region's
  invariant from each point to the next.
-/
import proofs.«144960_j69045894250969_2_alg».proof.Proof.KernelIdeal.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

theorem cover3_First (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) (y : S1x1x1024.Idx) :
    ∃ pc ∈ (runFirst c i arg2 harg2 arg3 harg3 arg4 harg4 arg5 harg5 arg6 harg6 hc1 hc2 hc3 x0 x1).1, y ∈ pc.1.set :=
  View.cover_of_tiledL (runFirst c i arg2 harg2 arg3 harg3 arg4 harg4 arg5 harg5 arg6 harg6 hc1 hc2 hc3 x0 x1).1 S1x1x1024.size (by sl_kernel_rfl) y
/-- The second output's buffer after a first tile. -/
def out3_First (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) : Vec F S1x1x1024 .f32 :=
  VO3.read (Elt F) (VO3.writes (Elt F) VO3.junk (runFirst c i arg2 harg2 arg3 harg3 arg4 harg4 arg5 harg5 arg6 harg6 hc1 hc2 hc3 x0 x1).1)
theorem scover_First (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) (y : S1x4096.Idx) :
    ∃ pc ∈ (runFirst c i arg2 harg2 arg3 harg3 arg4 harg4 arg5 harg5 arg6 harg6 hc1 hc2 hc3 x0 x1).2.1, y ∈ pc.1.set :=
  View.cover_of_tiledL (runFirst c i arg2 harg2 arg3 harg3 arg4 harg4 arg5 harg5 arg6 harg6 hc1 hc2 hc3 x0 x1).2.1 S1x4096.size (by sl_kernel_rfl) y
/-- The scratch after a first tile. -/
def sout_First (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) : Vec F S1x4096 .f32 :=
  VS.read (Elt F) (VS.writes (Elt F) VS.junk (runFirst c i arg2 harg2 arg3 harg3 arg4 harg4 arg5 harg5 arg6 harg6 hc1 hc2 hc3 x0 x1).2.1)

theorem cover3_Later (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) (y : S1x1x1024.Idx) :
    ∃ pc ∈ (runLater c i arg2 harg2 arg3 harg3 arg4 harg4 arg5 harg5 arg6 harg6 hc1 hc2 hc3 x0 x1 xs).1, y ∈ pc.1.set :=
  View.cover_of_tiledL (runLater c i arg2 harg2 arg3 harg3 arg4 harg4 arg5 harg5 arg6 harg6 hc1 hc2 hc3 x0 x1 xs).1 S1x1x1024.size (by sl_kernel_rfl) y
/-- The second output's buffer after a later tile. -/
def out3_Later (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) : Vec F S1x1x1024 .f32 :=
  VO3.read (Elt F) (VO3.writes (Elt F) VO3.junk (runLater c i arg2 harg2 arg3 harg3 arg4 harg4 arg5 harg5 arg6 harg6 hc1 hc2 hc3 x0 x1 xs).1)
theorem scover_Later (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) (y : S1x4096.Idx) :
    ∃ pc ∈ (runLater c i arg2 harg2 arg3 harg3 arg4 harg4 arg5 harg5 arg6 harg6 hc1 hc2 hc3 x0 x1 xs).2.1, y ∈ pc.1.set :=
  View.cover_of_tiledL (runLater c i arg2 harg2 arg3 harg3 arg4 harg4 arg5 harg5 arg6 harg6 hc1 hc2 hc3 x0 x1 xs).2.1 S1x4096.size (by sl_kernel_rfl) y
/-- The scratch after a later tile, over what it held (`xs`). -/
def sout_Later (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) : Vec F S1x4096 .f32 :=
  VS.read (Elt F) (VS.writes (Elt F) VS.junk (runLater c i arg2 harg2 arg3 harg3 arg4 harg4 arg5 harg5 arg6 harg6 hc1 hc2 hc3 x0 x1 xs).2.1)

theorem cover2_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) (y : S1x1x4096.Idx) :
    ∃ pc ∈ (runLast c i arg2 harg2 arg3 harg3 arg4 harg4 arg5 harg5 arg6 harg6 hc1 hc2 hc3 x0 x1 xs).1, y ∈ pc.1.set :=
  View.cover_of_tiledL (runLast c i arg2 harg2 arg3 harg3 arg4 harg4 arg5 harg5 arg6 harg6 hc1 hc2 hc3 x0 x1 xs).1 S1x1x4096.size (by sl_kernel_rfl) y
/-- The first output's buffer after a last tile. -/
def out2_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) : Vec F S1x1x4096 .f32 :=
  VO2.read (Elt F) (VO2.writes (Elt F) VO2.junk (runLast c i arg2 harg2 arg3 harg3 arg4 harg4 arg5 harg5 arg6 harg6 hc1 hc2 hc3 x0 x1 xs).1)
theorem cover3_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) (y : S1x1x1024.Idx) :
    ∃ pc ∈ (runLast c i arg2 harg2 arg3 harg3 arg4 harg4 arg5 harg5 arg6 harg6 hc1 hc2 hc3 x0 x1 xs).2.1, y ∈ pc.1.set :=
  View.cover_of_tiledL (runLast c i arg2 harg2 arg3 harg3 arg4 harg4 arg5 harg5 arg6 harg6 hc1 hc2 hc3 x0 x1 xs).2.1 S1x1x1024.size (by sl_kernel_rfl) y
/-- The second output's buffer after a last tile. -/
def out3_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) : Vec F S1x1x1024 .f32 :=
  VO3.read (Elt F) (VO3.writes (Elt F) VO3.junk (runLast c i arg2 harg2 arg3 harg3 arg4 harg4 arg5 harg5 arg6 harg6 hc1 hc2 hc3 x0 x1 xs).2.1)
theorem scover_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) (y : S1x4096.Idx) :
    ∃ pc ∈ (runLast c i arg2 harg2 arg3 harg3 arg4 harg4 arg5 harg5 arg6 harg6 hc1 hc2 hc3 x0 x1 xs).2.2.1, y ∈ pc.1.set :=
  View.cover_of_tiledL (runLast c i arg2 harg2 arg3 harg3 arg4 harg4 arg5 harg5 arg6 harg6 hc1 hc2 hc3 x0 x1 xs).2.2.1 S1x4096.size (by sl_kernel_rfl) y
/-- The scratch after a last tile, over what it held. -/
def sout_Last (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) : Vec F S1x4096 .f32 :=
  VS.read (Elt F) (VS.writes (Elt F) VS.junk (runLast c i arg2 harg2 arg3 harg3 arg4 harg4 arg5 harg5 arg6 harg6 hc1 hc2 hc3 x0 x1 xs).2.2.1)

/-- What stands for the first output's buffer at a point that leaves it untouched: nothing consults it, since the
    buffer is neither written back there nor read before it is next stored whole. -/
def idle2 : Vec F S1x1x4096 .f32 := VO2.read (Elt F) VO2.junk

/-! ## Point by point -/

/-- After the body at position `n`: the first output's buffer, the second output's buffer, the scratch. -/
def outsAt (c : Dev nD) : (n : ℕ) → n < cfg0.N → Vec F S1x1x4096 .f32 × Vec F S1x1x1024 .f32 × Vec F S1x4096 .f32
  | 0, hn =>
    have h0 : (⟨0, hn⟩ : Fin cfg0.N).val % 4 = 0 := Nat.zero_mod _
    have h3 : ¬ (⟨0, hn⟩ : Fin cfg0.N).val % 4 = 3 := fun h => absurd ((Nat.zero_mod 4).symm.trans h) (by decide)
    (idle2, out3_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr h0) (fun h => (hcondLater ⟨0, hn⟩).mp h h0) (fun h => h3 ((hcondLast ⟨0, hn⟩).mp h)) (iblk m c 0 ⟨0, hn⟩) (iblk m c 1 ⟨0, hn⟩),
      sout_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr h0) (fun h => (hcondLater ⟨0, hn⟩).mp h h0) (fun h => h3 ((hcondLast ⟨0, hn⟩).mp h)) (iblk m c 0 ⟨0, hn⟩) (iblk m c 1 ⟨0, hn⟩))
  | n + 1, hn =>
    if h0 : (n + 1) % 4 = 0 then
      have h3 : ¬ (n + 1) % 4 = 3 := by omega
      (idle2, out3_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => (hcondLater ⟨n + 1, hn⟩).mp h h0) (fun h => h3 ((hcondLast ⟨n + 1, hn⟩).mp h)) (iblk m c 0 ⟨n + 1, hn⟩) (iblk m c 1 ⟨n + 1, hn⟩),
        sout_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => (hcondLater ⟨n + 1, hn⟩).mp h h0) (fun h => h3 ((hcondLast ⟨n + 1, hn⟩).mp h)) (iblk m c 0 ⟨n + 1, hn⟩) (iblk m c 1 ⟨n + 1, hn⟩))
    else
      if h3 : (n + 1) % 4 = 3 then
        (out2_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) ((hcondLast ⟨n + 1, hn⟩).mpr h3) (iblk m c 0 ⟨n + 1, hn⟩) (iblk m c 1 ⟨n + 1, hn⟩) (outsAt c n (Nat.lt_of_succ_lt hn)).2.2,
          out3_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) ((hcondLast ⟨n + 1, hn⟩).mpr h3) (iblk m c 0 ⟨n + 1, hn⟩) (iblk m c 1 ⟨n + 1, hn⟩) (outsAt c n (Nat.lt_of_succ_lt hn)).2.2,
          sout_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) ((hcondLast ⟨n + 1, hn⟩).mpr h3) (iblk m c 0 ⟨n + 1, hn⟩) (iblk m c 1 ⟨n + 1, hn⟩) (outsAt c n (Nat.lt_of_succ_lt hn)).2.2)
      else
        (idle2, out3_Later c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) (fun h => h3 ((hcondLast ⟨n + 1, hn⟩).mp h)) (iblk m c 0 ⟨n + 1, hn⟩) (iblk m c 1 ⟨n + 1, hn⟩) (outsAt c n (Nat.lt_of_succ_lt hn)).2.2,
          sout_Later c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLater ⟨n + 1, hn⟩).mpr h0) (fun h => h3 ((hcondLast ⟨n + 1, hn⟩).mp h)) (iblk m c 0 ⟨n + 1, hn⟩) (iblk m c 1 ⟨n + 1, hn⟩) (outsAt c n (Nat.lt_of_succ_lt hn)).2.2)

theorem outsAt_First (c : Dev nD) (t : Fin cfg0.N) (h0 : t.val % 4 = 0) (h3 : ¬ t.val % 4 = 3) :
    outsAt m c t.val t.isLt = (idle2, out3_First c (grid0.coords t) (ms0 t) (hs0 t) (ms1 t) (hs1 t) (ms2 t) (hs2 t) (ms3 t) (hs3 t) scM (Memref.isWhole_whole _) ((hcondFirst t).mpr h0) (fun h => (hcondLater t).mp h h0) (fun h => h3 ((hcondLast t).mp h)) (iblk m c 0 t) (iblk m c 1 t),
      sout_First c (grid0.coords t) (ms0 t) (hs0 t) (ms1 t) (hs1 t) (ms2 t) (hs2 t) (ms3 t) (hs3 t) scM (Memref.isWhole_whole _) ((hcondFirst t).mpr h0) (fun h => (hcondLater t).mp h h0) (fun h => h3 ((hcondLast t).mp h)) (iblk m c 0 t) (iblk m c 1 t)) := by
  obtain ⟨n, hn⟩ := t
  cases n with
  | zero => exact rfl
  | succ n => exact (dif_pos h0).trans rfl

theorem outsAt_Later (c : Dev nD) (t : Fin cfg0.N) (h0 : ¬ t.val % 4 = 0) (h3 : ¬ t.val % 4 = 3) :
    outsAt m c t.val t.isLt = (idle2, out3_Later c (grid0.coords t) (ms0 t) (hs0 t) (ms1 t) (hs1 t) (ms2 t) (hs2 t) (ms3 t) (hs3 t) scM (Memref.isWhole_whole _) (fun h => h0 ((hcondFirst t).mp h)) ((hcondLater t).mpr h0) (fun h => h3 ((hcondLast t).mp h)) (iblk m c 0 t) (iblk m c 1 t) (outsAt m c (t.val - 1) (Nat.lt_of_le_of_lt (Nat.sub_le _ _) t.isLt)).2.2,
      sout_Later c (grid0.coords t) (ms0 t) (hs0 t) (ms1 t) (hs1 t) (ms2 t) (hs2 t) (ms3 t) (hs3 t) scM (Memref.isWhole_whole _) (fun h => h0 ((hcondFirst t).mp h)) ((hcondLater t).mpr h0) (fun h => h3 ((hcondLast t).mp h)) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h3).trans rfl)

theorem outsAt_Last (c : Dev nD) (t : Fin cfg0.N) (h0 : ¬ t.val % 4 = 0) (h3 : t.val % 4 = 3) :
    outsAt m c t.val t.isLt = (out2_Last c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2,
      out3_Last c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2,
      sout_Last c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h3).trans rfl)

/-- The region's invariant before position `n`: before the first point the scratch holds anything; afterwards what
    the point before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

/-- The arrays as the region finds them; after the body each input's buffer at its block, the outputs' at `outsAt`;
    the invariant carrying the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves3 (c : Dev nD) (t : Fin cfg0.N) :
    (dats m 0 c).leavesExact 3 t = owns (c : Thread nD τ) (ms3 t) fullShare ((outsAt m c t.val t.isLt).2.1) := by
  unfold Dat.leavesExact; rw [liveAt3 t, after3]
theorem leaves2_last (c : Dev nD) (t : Fin cfg0.N) (h : condLast (grid0.coords t)) :
    (dats m 0 c).leavesExact 2 t = owns (c : Thread nD τ) (ms2 t) fullShare ((outsAt m c t.val t.isLt).1) := by
  unfold Dat.leavesExact; rw [liveAt2 t h, after2]

set_option maxHeartbeats 4800000 in
/-- The body at any point: which kind of point it is decides the run; the invariant hands the run the scratch at
    what the point before left (at anything before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves3]
  have hN : t.val < 32 := lt_of_lt_of_eq t.isLt (show cfg0.N = 32 from N_0)
  by_cases h0 : t.val % 4 = 0
  · have h3 : ¬ t.val % 4 = 3 := by omega
    rw [Dat.leavesExact_idle (dats m 0 c) 2 t (idleAt2 t (fun h => h3 ((hcondLast t).mp h))) (noFlush2 t (fun h => h3 ((hcondLast t).mp h)))]
    rw [outsAt_First m c t h0 h3]
    unfold out3_First sout_First; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((hcondFirst t).mpr h0) (fun h => (hcondLater t).mp h h0) (fun h => h3 ((hcondLast t).mp h)) (iblk m c 0 t) (iblk m c 1 t)).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (scover_First c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover3_First c _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((hcondFirst t).mpr h0) (fun h => (hcondLater t).mp h h0) (fun h => h3 ((hcondLast t).mp h)) (iblk m c 0 t) (iblk m c 1 t)).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (scover_First c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover3_First c _ _ _ _ _ _ _ _ _ _ _ _ _ _ _ _)
  · have hz : t.val ≠ 0 := fun h => h0 (by rw [h])
    by_cases h3 : t.val % 4 = 3
    · rw [leaves2_last m c t ((hcondLast t).mpr h3)]
      rw [outsAt_Last m c t h0 h3]
      unfold out2_Last out3_Last sout_Last; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (fun h => h0 ((hcondFirst t).mp h)) ((hcondLater t).mpr h0) ((hcondLast t).mpr h3) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_Last c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_Last c _ _ _ _ _ _ _ _ _ _ _ _ _ _ _ _ _)
      unfold owns; iexists _; isplitr
      swap; · iexact H3
      ipureintro; exact View.read_writes_of_cover _ _ _ _ _ (cover3_Last c _ _ _ _ _ _ _ _ _ _ _ _ _ _ _ _ _)
    · rw [Dat.leavesExact_idle (dats m 0 c) 2 t (idleAt2 t (fun h => h3 ((hcondLast t).mp h))) (noFlush2 t (fun h => h3 ((hcondLast t).mp h)))]
      rw [outsAt_Later m c t h0 h3]
      unfold out3_Later sout_Later; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLater c (grid0.coords t) _ _ _ _ _ _ _ _ _ _ (fun h => h0 ((hcondFirst t).mp h)) ((hcondLater t).mpr h0) (fun h => h3 ((hcondLast t).mp h)) (iblk m c 0 t) (iblk m c 1 t) _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (scover_Later c _ _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover3_Later c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates without a fault; every array of the pipeline ends at what the
    proof data computes, every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KernelIdeal.Pieces.lean ====
/-
  What each kind of grid point leaves, as the body's named values of the blocks it loaded.

  Every buffer the body stores into it stores whole, so what a buffer holds afterwards is its last store's value:
  the second output's buffer the tile's row minima, the scratch the tile's column minima (first tile) or their fold
  into what it held (later tiles), and the first output's buffer, at a last tile, the scratch just stored, reshaped.
-/
import proofs.«144960_j69045894250969_2_alg».proof.Proof.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem sout_First_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) :
    sout_First c i arg2 harg2 arg3 harg3 arg4 harg4 arg5 harg5 arg6 harg6 hc1 hc2 hc3 x0 x1 = k0_pay5 x0 x1 := by
  unfold sout_First
  rw [View.read_writes_eq_canon _ _ _ (scover_First c i arg2 harg2 arg3 harg3 arg4 harg4 arg5 harg5 arg6 harg6 hc1 hc2 hc3 x0 x1)]
  unfold runFirst
  dsimp only
  rw [View.canon_unit_zero hz2]
  simp only [View.readAt_eq_ld, harg2.read_unread, harg3.read_unread, harg6.read_unread, View.ld_unit_zero (S := S1x3x4096) hz3, View.ld_unit_zero (S := S1x3x1024) hz3, View.ld_unit_zero (S := S1x4096) hz2]

theorem out3_First_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : condFirst i) (hc2 : ¬ condLater i) (hc3 : ¬ condLast i) (x0 : Vec F S1x3x4096 .f32) (x1 : Vec F S1x3x1024 .f32) :
    out3_First c i arg2 harg2 arg3 harg3 arg4 harg4 arg5 harg5 arg6 harg6 hc1 hc2 hc3 x0 x1 = k0_pay3 x0 x1 := by
  unfold out3_First
  rw [View.read_writes_eq_canon _ _ _ (cover3_First c i arg2 harg2 arg3 harg3 arg4 harg4 arg5 harg5 arg6 harg6 hc1 hc2 hc3 x0 x1)]
  unfold runFirst
  dsimp only
  rw [View.canon_unit_zero hz3]
  simp only [View.readAt_eq_ld, harg2.read_unread, harg3.read_unread, harg6.read_unread, View.ld_unit_zero (S := S1x3x4096) hz3, View.ld_unit_zero (S := S1x3x1024) hz3, View.ld_unit_zero (S := S1x4096) hz2]

theorem sout_Later_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) :
    sout_Later c i arg2 harg2 arg3 harg3 arg4 harg4 arg5 harg5 arg6 harg6 hc1 hc2 hc3 x0 x1 xs = k0_pay6 x0 x1 xs := by
  unfold sout_Later
  rw [View.read_writes_eq_canon _ _ _ (scover_Later c i arg2 harg2 arg3 harg3 arg4 harg4 arg5 harg5 arg6 harg6 hc1 hc2 hc3 x0 x1 xs)]
  unfold runLater
  dsimp only
  rw [View.canon_unit_zero hz2]
  simp only [View.readAt_eq_ld, harg2.read_unread, harg3.read_unread, harg6.read_unread, View.ld_unit_zero (S := S1x3x4096) hz3, View.ld_unit_zero (S := S1x3x1024) hz3, View.ld_unit_zero (S := S1x4096) hz2]

theorem out3_Later_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : ¬ condLast i) (x0 : Vec F S1x3x4096 .f32) (x1 : Vec F S1x3x1024 .f32) (xs : Vec F S1x4096 .f32) :
    out3_Later c i arg2 harg2 arg3 harg3 arg4 harg4 arg5 harg5 arg6 harg6 hc1 hc2 hc3 x0 x1 xs = k0_pay3 x0 x1 := by
  unfold out3_Later
  rw [View.read_writes_eq_canon _ _ _ (cover3_Later c i arg2 harg2 arg3 harg3 arg4 harg4 arg5 harg5 arg6 harg6 hc1 hc2 hc3 x0 x1 xs)]
  unfold runLater
  dsimp only
  rw [View.canon_unit_zero hz3]
  simp only [View.readAt_eq_ld, harg2.read_unread, harg3.read_unread, harg6.read_unread, View.ld_unit_zero (S := S1x3x4096) hz3, View.ld_unit_zero (S := S1x3x1024) hz3, View.ld_unit_zero (S := S1x4096) hz2]

theorem sout_Last_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) :
    sout_Last c i arg2 harg2 arg3 harg3 arg4 harg4 arg5 harg5 arg6 harg6 hc1 hc2 hc3 x0 x1 xs = k0_pay6 x0 x1 xs := by
  unfold sout_Last
  rw [View.read_writes_eq_canon _ _ _ (scover_Last c i arg2 harg2 arg3 harg3 arg4 harg4 arg5 harg5 arg6 harg6 hc1 hc2 hc3 x0 x1 xs)]
  unfold runLast
  dsimp only
  sl_unfold_words
  rw [View.canon_unit_zero hz2]
  simp only [View.readAt_eq_ld, harg2.read_unread, harg3.read_unread, harg6.read_unread, View.ld_unit_zero (S := S1x3x4096) hz3, View.ld_unit_zero (S := S1x3x1024) hz3, View.ld_unit_zero (S := S1x4096) hz2]

theorem out3_Last_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) :
    out3_Last c i arg2 harg2 arg3 harg3 arg4 harg4 arg5 harg5 arg6 harg6 hc1 hc2 hc3 x0 x1 xs = k0_pay3 x0 x1 := by
  unfold out3_Last
  rw [View.read_writes_eq_canon _ _ _ (cover3_Last c i arg2 harg2 arg3 harg3 arg4 harg4 arg5 harg5 arg6 harg6 hc1 hc2 hc3 x0 x1 xs)]
  unfold runLast
  dsimp only
  rw [View.canon_unit_zero hz3]
  simp only [View.readAt_eq_ld, harg2.read_unread, harg3.read_unread, harg6.read_unread, View.ld_unit_zero (S := S1x3x4096) hz3, View.ld_unit_zero (S := S1x3x1024) hz3, View.ld_unit_zero (S := S1x4096) hz2]

theorem out2_Last_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S1x4096 .f32) (harg6 : arg6.IsWhole) (hc1 : ¬ condFirst i) (hc2 : condLater i) (hc3 : condLast i) (x0 : Vec F S1x3x4096 .f32) (x1 : Vec F S1x3x1024 .f32) (xs : Vec F S1x4096 .f32) :
    out2_Last c i arg2 harg2 arg3 harg3 arg4 harg4 arg5 harg5 arg6 harg6 hc1 hc2 hc3 x0 x1 xs = k0_pay1 (k0_pay6 x0 x1 xs) := by
  unfold out2_Last
  rw [View.read_writes_eq_canon _ _ _ (cover2_Last c i arg2 harg2 arg3 harg3 arg4 harg4 arg5 harg5 arg6 harg6 hc1 hc2 hc3 x0 x1 xs)]
  unfold runLast
  dsimp only
  sl_unfold_words
  rw [View.canon_unit_zero hz3, View.readCov_unit_zero (S := S1x4096) _ hz2]
  simp only [View.readAt_eq_ld, harg2.read_unread, harg3.read_unread, harg6.read_unread, View.ld_unit_zero (S := S1x3x4096) hz3, View.ld_unit_zero (S := S1x3x1024) hz3, View.ld_unit_zero (S := S1x4096) hz2]

end Cert.KernelIdeal.Body

end
-- ==== Proof.Spec.lean ====
/-
  The chamfer loss's two nearest-neighbour arrays, as functions of the two point clouds, in the two forms the
  programs compute them, and the tail both programs share.

  A cloud is three rows of coordinates, one column per point. The squared distance between point `n` of `p` and point
  `m` of `q` is written by the reference as the Gram expansion |p_n|² + |q_m|² − 2·⟨p_n, q_m⟩ (`rdist`), and by the
  kernel as ONE contraction over five augmented rows, (q_m ; |q_m|² ; 1) · (−2·p_n ; 1 ; |p_n|²) (`kdist`). Each
  nearest-neighbour array is an infimum of these over the other cloud's points; the kernel takes the infimum over
  `q`'s points a tile of 1024 at a time (`tileIdx`). The loss is the sum of the two arrays' means plus a KL term of
  two further arrays (`recon`, `kld`, `total`): the same operations in both programs.
-/
import Idealize.ShloMosaic.PureOps.Ideal
import Idealize.ShloMosaic.Lib.ValueIdx

noncomputable section

open scoped BigOperators

namespace Cert.Chamfer

open Idealize.ShloMosaic Idealize.ShloMosaic.ValueIdx

abbrev S8x3x4096 : Shape := ⟨3, ![8, 3, 4096]⟩
abbrev S8x4096 : Shape := ⟨2, ![8, 4096]⟩
abbrev S8x256 : Shape := ⟨2, ![8, 256]⟩
abbrev S_ : Shape := ⟨0, ![]⟩

/-- Squared length of point `n`: the sum of the squares of its three coordinates. -/
def sqn {N : ℕ} (a : Fin 3 → Fin N → EReal) (n : Fin N) : EReal := ∑ d : Fin 3, a d n * a d n

/-- The reference's squared distance: |p_n|² + |q_m|² − 2·⟨p_n, q_m⟩. -/
def rdist {N M : ℕ} (p : Fin 3 → Fin N → EReal) (q : Fin 3 → Fin M → EReal) (n : Fin N) (m : Fin M) : EReal :=
  (sqn p n + sqn q m) - ((2 : ℝ) : EReal) * ∑ d : Fin 3, p d n * q d m

/-- The kernel's: the five products of the augmented rows, summed in row order. -/
def kdist {N M : ℕ} (p : Fin 3 → Fin N → EReal) (q : Fin 3 → Fin M → EReal) (m : Fin M) (n : Fin N) : EReal :=
  (∑ d : Fin 3, q d m * (((-2 : ℝ) : EReal) * p d n)) + sqn q m * ((1 : ℝ) : EReal) + ((1 : ℝ) : EReal) * sqn p n

/-- Point `r` of tile `j` (of four tiles of 1024) is point `1024·j + r` of the cloud. -/
def tileIdx (j : Fin 4) (r : Fin 1024) : Fin 4096 := ⟨1024 * j.val + r.val, by omega⟩

/-- Tile `j` of a cloud's columns. -/
def tile (q : Fin 3 → Fin 4096 → EReal) (j : Fin 4) : Fin 3 → Fin 1024 → EReal := fun d r => q d (tileIdx j r)

/-- Batch `b` of an array of eight clouds. -/
def cloud (P : S8x3x4096.Idx → EReal) (b : Fin 8) : Fin 3 → Fin 4096 → EReal := fun d n => P (ix3 b d n)

/-- A fold of `min` from +∞ over a finite set is the set's infimum. -/
theorem fold_min_top {ι : Type*} [DecidableEq ι] (s : Finset ι) (f : ι → EReal) : s.fold min ⊤ f = s.inf f := by
  induction s using Finset.induction_on with
  | empty => simp
  | insert a s ha ih => rw [Finset.fold_insert ha, Finset.inf_insert, ih]

/-! ## The tail both programs share -/

/-- Mean of the first nearest-neighbour array plus mean of the second (each a sum over all 8·4096 entries over 32768). -/
def recon (h1 : S8x4096.ReducesTo [0, 1] S_) (h0 : 0 < S_.numel) (mx my : FVec Ideal S8x4096 .f32) : FVec Ideal S_ .f32 :=
  addf (Host.divf (Host.reduceAdd mx (constant (F := Ideal) S_ .f32 0x00000000#32) h1 h0) (constant (F := Ideal) S_ .f32 0x47000000#32))
    (Host.divf (Host.reduceAdd my (constant (F := Ideal) S_ .f32 0x00000000#32) h1 h0) (constant (F := Ideal) S_ .f32 0x47000000#32))

/-- The KL term: −½ · Σ (1 + logvar − mu² − exp logvar), over 8. -/
def kld (hb : S_.BroadcastsInDim S8x256 (![] : Fin 0 → Fin S8x256.rank)) (h2 : S8x256.ReducesTo [0, 1] S_) (h0 : 0 < S_.numel)
    (mu lv : FVec Ideal S8x256 .f32) : FVec Ideal S_ .f32 :=
  Host.divf (mulf (constant (F := Ideal) S_ .f32 0xBF000000#32)
    (Host.reduceAdd (subf (subf (addf (broadcastInDim S8x256 ![] hb (constant (F := Ideal) S_ .f32 0x3F800000#32)) lv) (mulf mu mu)) (Host.exp lv))
      (constant (F := Ideal) S_ .f32 0x00000000#32) h2 h0)) (constant (F := Ideal) S_ .f32 0x41000000#32)

/-- The total: the reconstruction term plus 1 · the KL term. -/
def total (r k : FVec Ideal S_ .f32) : FVec Ideal S_ .f32 := addf r (mulf (constant (F := Ideal) S_ .f32 0x3F800000#32) k)

end Cert.Chamfer

end
-- ==== Proof.KernelIdeal.Blocks.lean ====
/-
  The windows' blocks at a grid point, read at coordinates.

  Point `t` of the 8-by-4 grid is batch `t / 4`, tile `t % 4`. The first cloud's block there is the whole batch, the
  second cloud's block the batch's tile of 1024 points; the first output's block is the batch's row, the second
  output's the tile's part of it.
-/
import proofs.«144960_j69045894250969_2_alg».proof.Proof.Gen.KernelIdeal.Frame
import proofs.«144960_j69045894250969_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps over the grid: the leading block index is the batch, the last one the tile (or 0). -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = t.val % 4 :=
  (by decide +kernel : ∀ t : Fin grid0.N, _)

theorem lt32 (t : Fin cfg0.N) : t.val < 32 := lt_of_lt_of_eq t.isLt (show cfg0.N = 32 from N_0)

/-- The batch of a point. -/
def batch (t : Fin cfg0.N) : Fin 8 := ⟨t.val / 4, by have := lt32 t; omega⟩
/-- The tile of a point. -/
def tileOf (t : Fin cfg0.N) : Fin 4 := ⟨t.val % 4, by omega⟩

/-- The first cloud's block at a point is its batch. -/
theorem iblk0_apply (c : Dev nD) (t : Fin cfg0.N) (d : Fin 3) (n : Fin 4096) :
    iblk m c 0 t (ix3 (0 : Fin 1) d n) = V m c main_arg0 (ix3 (batch t) d n) := by
  obtain ⟨e0, e1, e2, -⟩ := idx_facts t
  show V m c main_arg0 (((cfg0.win 0).blk t).view.emb (ix3 (0 : Fin 1) d n)) = V m c main_arg0 (ix3 (batch t) d n)
  refine congrArg _ (funext fun a => Fin.ext ?_)
  match a with
  | ⟨0, _⟩ => show win0_0.index t (0 : Fin 3) * 1 + 1 * 0 = t.val / 4; omega
  | ⟨1, _⟩ => show win0_0.index t (1 : Fin 3) * 3 + 1 * d.val = d.val; omega
  | ⟨2, _⟩ => show win0_0.index t (2 : Fin 3) * 4096 + 1 * n.val = n.val; omega

/-- The second cloud's block at a point is its batch's tile. -/
theorem iblk1_apply (c : Dev nD) (t : Fin cfg0.N) (d : Fin 3) (r : Fin 1024) :
    iblk m c 1 t (ix3 (0 : Fin 1) d r) = V m c main_arg1 (ix3 (batch t) d (Cert.Chamfer.tileIdx (tileOf t) r)) := by
  obtain ⟨-, -, -, e0, e1, e2, -⟩ := idx_facts t
  show V m c main_arg1 (((cfg0.win 1).blk t).view.emb (ix3 (0 : Fin 1) d r)) = V m c main_arg1 (ix3 (batch t) d (Cert.Chamfer.tileIdx (tileOf t) r))
  refine congrArg _ (funext fun a => Fin.ext ?_)
  match a with
  | ⟨0, _⟩ => show win0_1.index t (0 : Fin 3) * 1 + 1 * 0 = t.val / 4; omega
  | ⟨1, _⟩ => show win0_1.index t (1 : Fin 3) * 3 + 1 * d.val = d.val; omega
  | ⟨2, _⟩ => show win0_1.index t (2 : Fin 3) * 1024 + 1 * r.val = 1024 * (t.val % 4) + r.val; omega

end Cert.KernelIdeal.Blocks

end
-- ==== Proof.KernelIdeal.Cover.lean ====
/-
  Which indices of the two output arrays each grid point's block holds, and that the blocks cover the arrays.

  Point `t` of the 8-by-4 grid is batch `t / 4`, tile `t % 4`. Both outputs are arrays of eight rows of 4096 entries, one row
  per batch. The first output's block at a point is its batch's whole row, written back at the last tile of the batch
  (`t % 4 = 3`); the second output's block is the part of the row that belongs to the point's tile, 1024 entries, written
  back at every point. So entry `(b, 0, n)` of the first output is in the block written back at point `4 b + 3`, and entry
  `(b, 0, n)` of the second in the block written back at point `4 b + n / 1024`.
-/
import proofs.«144960_j69045894250969_2_alg».proof.Proof.KernelIdeal.Blocks
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

/-! ## A block's indices -/

/-- An index of the first output is in point `t`'s block iff each coordinate is in the block's range on its axis. -/
theorem mem_blk2 (t : Fin cfg0.N) (i : S8x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v0_0).slice (win0_2.rect t)).set ↔ _
  rw [View.set_slice_whole, Rect.mem_set_unit]
  exact Iff.rfl

/-- An index of the second output is in point `t`'s block iff each coordinate is in the block's range on its axis. -/
theorem mem_blk3 (t : Fin cfg0.N) (i : S8x1x4096.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v0_1).slice (win0_3.rect t)).set ↔ _
  rw [View.set_slice_whole, Rect.mem_set_unit]
  exact Iff.rfl

/-! ## The blocks written back cover the arrays -/

/-- Every index of the first output is in the block written back at the last tile of its batch, point `4 b + 3`. -/
theorem cover2 (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  obtain ⟨t, ht⟩ : ∃ t : Fin cfg0.N, t.val = 4 * (i 0).val + 3 :=
    ⟨⟨4 * (i 0).val + 3, lt_of_lt_of_eq (by omega : 4 * (i 0).val + 3 < 32) (show cfg0.N = 32 from N_0).symm⟩, rfl⟩
  obtain ⟨-, -, -, -, -, -, e0, e1, e2, -⟩ := idx_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 4096 ≤ (i 2).val ∧ (i 2).val < win0_2.index t (2 : Fin 3) * 4096 + 4096; omega

/-- Every index `(b, 0, n)` of the second output is in the block written back at its batch's tile `n / 1024`, point
    `4 b + n / 1024`. -/
theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  obtain ⟨t, ht⟩ : ∃ t : Fin cfg0.N, t.val = 4 * (i 0).val + (i 2).val / 1024 :=
    ⟨⟨4 * (i 0).val + (i 2).val / 1024, lt_of_lt_of_eq (by omega : 4 * (i 0).val + (i 2).val / 1024 < 32) (show cfg0.N = 32 from N_0).symm⟩, rfl⟩
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1024 ≤ (i 2).val ∧ (i 2).val < win0_3.index t (2 : Fin 3) * 1024 + 1024; omega

/-! ## Where a block's entry sits in the array -/

/-- Entry `n` of the first output's block at a point is entry `n` of its batch's row. -/
theorem emb2 (t : Fin cfg0.N) (n : Fin 4096) :
    ((cfg0.win 2).blk t).view.emb (ix3 (0 : Fin 1) (0 : Fin 1) n) = ix3 (batch t) (0 : Fin 1) n := by
  obtain ⟨-, -, -, -, -, -, e0, e1, e2, -⟩ := idx_facts t
  refine funext fun a => Fin.ext ?_
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 4096 + 1 * n.val = n.val; omega

/-- Entry `r` of the second output's block at a point is entry `1024 · tile + r` of its batch's row. -/
theorem emb3 (t : Fin cfg0.N) (r : Fin 1024) :
    ((cfg0.win 3).blk t).view.emb (ix3 (0 : Fin 1) (0 : Fin 1) r) = ix3 (batch t) (0 : Fin 1) (Cert.Chamfer.tileIdx (tileOf t) r) := by
  obtain ⟨-, -, -, -, -, -, -, -, -, e0, e1, e2⟩ := idx_facts t
  refine funext fun a => Fin.ext ?_
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 1024 + 1 * r.val = 1024 * (t.val % 4) + r.val; omega

end Cert.KernelIdeal.Blocks

end
-- ==== Proof.Payloads.lean ====
/-
  The arithmetic of the kernel's body, read one element at a time at the ideal values.

  For a block `x0` of the first cloud (three rows of 4096 coordinates) and a block `x1` of a tile of the second (three
  rows of 1024), the body stacks five rows on each side — the tile's points, their squared lengths and ones on the left;
  `-2` times the cloud's points, ones and the cloud's squared lengths on the right — and contracts the two stacks over
  the row axis. Entry `(r, n)` of the product is therefore the five-term expansion `kdist` of the squared distance
  between point `r` of the tile and point `n` of the cloud (`pay2_apply`). The body then takes the minimum of that
  tile along each axis from `+∞`, which are infima over the other cloud's points (`pay3_apply`, `pay4_apply`), and
  combines the column minima with a running value by a pointwise `min` (`pay6_apply`); the remaining values are reshapes
  (`pay1_apply`, `pay5_eq`). Narrowing to sixteen bits is the identity on extended reals, so it leaves no trace.

  The lemmas before the six statements read one operation each at an index given by coordinates: a reshape that adds unit
  axes, the sum over the three rows of a matrix, a minimum over one axis as an infimum, a stack of a three-row block and two
  single rows at each of its five rows, and the contraction as a sum over `Fin 5`.
-/
import proofs.«144960_j69045894250969_2_alg».proof.Proof.Gen.KernelIdeal.Skeleton
import proofs.«144960_j69045894250969_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Chamfer.Ker

open Idealize.ShloMosaic Idealize.ShloMosaic.ValueIdx Cert.KernelIdeal Cert.KernelIdeal.Gen

variable {α : Type}

/-! ## Reshapes that add unit axes to a vector, read at an index -/

/-- An `[a]` array cast to `[1, 1, a]` reads, at `(u, v, i)`, the operand at `i`. -/
private theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-! ## The small payloads -/

theorem pay1_apply (s : Vec Ideal S1x4096 .f32) (n : Fin 4096) :
    k0_pay1 (F := Ideal) s (ix3 0 0 n) = s (ix2 0 n) := by
  unfold k0_pay1
  refine (shapeCast_a_11a_apply _ shapeCasts_S4096_S1x1x4096 0 0 n).trans ?_
  exact shapeCast_1a_a_apply s shapeCasts_S1x4096_S4096 n

theorem pay5_eq (x0 : Vec Ideal S1x3x4096 .f32) (x1 : Vec Ideal S1x3x1024 .f32) :
    k0_pay5 (F := Ideal) x0 x1 = k0_pay4 (F := Ideal) x0 x1 := by
  unfold k0_pay5
  exact shapeCast_self _ _

theorem pay6_apply (x0 : Vec Ideal S1x3x4096 .f32) (x1 : Vec Ideal S1x3x1024 .f32) (s : Vec Ideal S1x4096 .f32) (n : Fin 4096) :
    k0_pay6 (F := Ideal) x0 x1 s (ix2 0 n) = min (s (ix2 0 n)) (k0_pay4 (F := Ideal) x0 x1 (ix2 0 n)) := by
  unfold k0_pay6
  rw [shapeCast_self]
  rfl

/-! ## The three float words of the body -/

/-- The word of `1.0` denotes the real `1`. -/
private theorem ofBits_one_f32 : Ideal.ofBits .f32 0x3F800000#32 = ((1 : ℝ) : EReal) := by
  simp [Ideal.ofBits, Ideal.ieee, -EReal.coe_mul]; norm_num

/-- The word of `-2.0` denotes the real `-2`. -/
private theorem ofBits_negtwo_f32 : Ideal.ofBits .f32 0xC0000000#32 = ((-2 : ℝ) : EReal) := by
  simp [Ideal.ofBits, Ideal.ieee, -EReal.coe_mul]; norm_num

/-- The word of `+∞` denotes `⊤`. -/
private theorem ofBits_inf_f32 : Ideal.ofBits .f32 0x7F800000#32 = (⊤ : EReal) := by
  simp [Ideal.ofBits, Ideal.ieee]

/-! ## The two kinds of reduction over one axis of a matrix -/

/-- The sum over the three rows of a `[3, N]` matrix, at column `n`. -/
private theorem sum_rows3_apply {N : ℕ} (src : FVec Ideal ⟨2, ![3, N]⟩ .f32) (acc : BitVec 32)
    (h : (⟨2, ![3, N]⟩ : Shape).Reduces [0] ⟨1, ![N]⟩) (hφ : FKind.Formats .f32) (hacc : acc = FKind.add.neutral .f32 hφ)
    (n : Fin N) :
    multiReduction .add [0] ⟨1, ![N]⟩ src acc h hφ hacc (ix1 n) = ∑ d : Fin 3, src (ix2 d n) := by
  refine (Ideal.multiReduction_add_single src acc h hφ hacc (ix1 n)).trans ?_
  refine Finset.sum_congr rfl fun d _ => congrArg src ?_
  funext a
  match a with
  | ⟨0, _⟩ => exact Fin.ext rfl
  | ⟨1, _⟩ => exact Fin.ext rfl

/-- A `<minimumf>` reduction over one axis, read at the ideal values: the fold of `min` from the accumulator's value over
    that axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of `min` over all of `Fin B` from a value that is `+∞` is the infimum. -/
private theorem fold_min_univ {B : ℕ} (f : Fin B → EReal) (z : EReal) (hz : z = ⊤) :
    (Finset.univ : Finset (Fin B)).fold min z f = Finset.univ.inf f := by
  subst hz; exact Cert.Chamfer.fold_min_top _ _

/-- The minimum along the columns of an `[A, B]` matrix from `+∞`, at row `r`: the infimum over the row. -/
private theorem min_cols_apply {A B : ℕ} (src : FVec Ideal ⟨2, ![A, B]⟩ .f32)
    (h : (⟨2, ![A, B]⟩ : Shape).Reduces [1] ⟨1, ![A]⟩) (hφ : FKind.Formats .f32)
    (hacc : (0x7F800000#32 : BitVec 32) = FKind.minimumf.neutral .f32 hφ) (r : Fin A) :
    multiReduction .minimumf [1] ⟨1, ![A]⟩ src 0x7F800000#32 h hφ hacc (ix1 r) = Finset.univ.inf fun n : Fin B => src (ix2 r n) := by
  refine (multiReduction_minimumf_single src _ h hφ hacc (ix1 r)).trans ?_
  refine (fold_min_univ (B := B) (fun n => src (h.lift (ix1 r) n)) _ ofBits_inf_f32).trans ?_
  refine Finset.inf_congr rfl fun n _ => congrArg src ?_
  funext a
  match a with
  | ⟨0, _⟩ => exact Fin.ext rfl
  | ⟨1, _⟩ => exact Fin.ext rfl

/-- The minimum along the rows of an `[A, B]` matrix from `+∞`, at column `n`: the infimum over the column. -/
private theorem min_rows_apply {A B : ℕ} (src : FVec Ideal ⟨2, ![A, B]⟩ .f32)
    (h : (⟨2, ![A, B]⟩ : Shape).Reduces [0] ⟨1, ![B]⟩) (hφ : FKind.Formats .f32)
    (hacc : (0x7F800000#32 : BitVec 32) = FKind.minimumf.neutral .f32 hφ) (n : Fin B) :
    multiReduction .minimumf [0] ⟨1, ![B]⟩ src 0x7F800000#32 h hφ hacc (ix1 n) = Finset.univ.inf fun r : Fin A => src (ix2 r n) := by
  refine (multiReduction_minimumf_single src _ h hφ hacc (ix1 n)).trans ?_
  refine (fold_min_univ (B := A) (fun r => src (h.lift (ix1 n) r)) _ ofBits_inf_f32).trans ?_
  refine Finset.inf_congr rfl fun r _ => congrArg src ?_
  funext a
  match a with
  | ⟨0, _⟩ => exact Fin.ext rfl
  | ⟨1, _⟩ => exact Fin.ext rfl

/-! ## Five rows stacked from a `[3, N]` block and two `[1, N]` rows, read at a row -/

/-- Rows 0–2 of the stack are the block's rows. -/
private theorem stack5_block_apply {N : ℕ} (X : (⟨2, ![3, N]⟩ : Shape).Idx → α) (Y Z : (⟨2, ![1, N]⟩ : Shape).Idx → α)
    (h : Shape.Concatenates [(⟨2, ![3, N]⟩ : Shape), ⟨2, ![1, N]⟩, ⟨2, ![1, N]⟩] ⟨2, ![5, N]⟩ 0) (d : Fin 3) (n : Fin N) :
    concatenate ⟨2, ![5, N]⟩ 0 [⟨⟨2, ![3, N]⟩, X⟩, ⟨⟨2, ![1, N]⟩, Y⟩, ⟨⟨2, ![1, N]⟩, Z⟩] h (ix2 (⟨d.val, by omega⟩ : Fin 5) n)
      = X (ix2 d n) := by
  refine concatenate_apply_piece (t := ⟨2, ![5, N]⟩) (0 : Fin 2) [⟨⟨2, ![3, N]⟩, X⟩, ⟨⟨2, ![1, N]⟩, Y⟩, ⟨⟨2, ![1, N]⟩, Z⟩] h _ 0 (by show (0 : ℕ) < 3; omega) ⟨2, ![3, N]⟩ X rfl rfl 0 rfl (ix2 d n) (fun b hb => ?_) ?_
  · match b with
    | ⟨0, _⟩ => exact absurd rfl hb
    | ⟨1, _⟩ => rfl
  · show 0 + d.val = d.val
    omega

/-- Row 3 of the stack is the first single row. -/
private theorem stack5_row3_apply {N : ℕ} (X : (⟨2, ![3, N]⟩ : Shape).Idx → α) (Y Z : (⟨2, ![1, N]⟩ : Shape).Idx → α)
    (h : Shape.Concatenates [(⟨2, ![3, N]⟩ : Shape), ⟨2, ![1, N]⟩, ⟨2, ![1, N]⟩] ⟨2, ![5, N]⟩ 0) (n : Fin N) :
    concatenate ⟨2, ![5, N]⟩ 0 [⟨⟨2, ![3, N]⟩, X⟩, ⟨⟨2, ![1, N]⟩, Y⟩, ⟨⟨2, ![1, N]⟩, Z⟩] h (ix2 (3 : Fin 5) n)
      = Y (ix2 (0 : Fin 1) n) := by
  refine concatenate_apply_piece (t := ⟨2, ![5, N]⟩) (0 : Fin 2) [⟨⟨2, ![3, N]⟩, X⟩, ⟨⟨2, ![1, N]⟩, Y⟩, ⟨⟨2, ![1, N]⟩, Z⟩] h _ 1 (by show (1 : ℕ) < 3; omega) ⟨2, ![1, N]⟩ Y rfl rfl 3 rfl (ix2 (0 : Fin 1) n) (fun b hb => ?_) ?_
  · match b with
    | ⟨0, _⟩ => exact absurd rfl hb
    | ⟨1, _⟩ => rfl
  · rfl

/-- Row 4 of the stack is the second single row. -/
private theorem stack5_row4_apply {N : ℕ} (X : (⟨2, ![3, N]⟩ : Shape).Idx → α) (Y Z : (⟨2, ![1, N]⟩ : Shape).Idx → α)
    (h : Shape.Concatenates [(⟨2, ![3, N]⟩ : Shape), ⟨2, ![1, N]⟩, ⟨2, ![1, N]⟩] ⟨2, ![5, N]⟩ 0) (n : Fin N) :
    concatenate ⟨2, ![5, N]⟩ 0 [⟨⟨2, ![3, N]⟩, X⟩, ⟨⟨2, ![1, N]⟩, Y⟩, ⟨⟨2, ![1, N]⟩, Z⟩] h (ix2 (4 : Fin 5) n)
      = Z (ix2 (0 : Fin 1) n) := by
  refine concatenate_apply_piece (t := ⟨2, ![5, N]⟩) (0 : Fin 2) [⟨⟨2, ![3, N]⟩, X⟩, ⟨⟨2, ![1, N]⟩, Y⟩, ⟨⟨2, ![1, N]⟩, Z⟩] h _ 2 (by show (2 : ℕ) < 3; omega) ⟨2, ![1, N]⟩ Z rfl rfl 4 rfl (ix2 (0 : Fin 1) n) (fun b hb => ?_) ?_
  · match b with
    | ⟨0, _⟩ => exact absurd rfl hb
    | ⟨1, _⟩ => rfl
  · rfl

/-! ## The contraction over the five stacked rows -/

/-- The left operand's column coordinate at an output index is the output's row. -/
private theorem lhsIdx_one (j : S1024x4096.Idx) (q : dot_S5x1024_S5x4096_S1024x4096_0_0_1_1_n_n.contr.Idx) :
    (dot_S5x1024_S5x4096_S1024x4096_0_0_1_1_n_n.lhsIdx j q 1).val = (j 0).val := by
  unfold DotDims.lhsIdx
  rw [dif_neg (show ¬(1 : Fin S5x1024.rank) ∈ dot_S5x1024_S5x4096_S1024x4096_0_0_1_1_n_n.lhsBatch by decide),
    dif_pos (show (1 : Fin S5x1024.rank) ∈ dot_S5x1024_S5x4096_S1024x4096_0_0_1_1_n_n.lhsNonContracting by decide)]
  rfl

/-- The right operand's column coordinate at an output index is the output's column. -/
private theorem rhsIdx_one (j : S1024x4096.Idx) (q : dot_S5x1024_S5x4096_S1024x4096_0_0_1_1_n_n.contr.Idx) :
    (dot_S5x1024_S5x4096_S1024x4096_0_0_1_1_n_n.rhsIdx j q 1).val = (j 1).val := by
  unfold DotDims.rhsIdx
  rw [dif_neg (show ¬(1 : Fin S5x4096.rank) ∈ dot_S5x1024_S5x4096_S1024x4096_0_0_1_1_n_n.rhsBatch by decide),
    dif_pos (show (1 : Fin S5x4096.rank) ∈ dot_S5x1024_S5x4096_S1024x4096_0_0_1_1_n_n.rhsNonContracting by decide)]
  rfl

/-- The matrix product contracting the row axis of both operands, into the zero accumulator, at `(r, n)`: the sum over
    the five rows of the left operand's column `r` times the right operand's column `n`. -/
private theorem matmul5_apply (L : FVec Ideal S5x1024 .bf16) (R : FVec Ideal S5x4096 .bf16) (r : Fin 1024) (n : Fin 4096) :
    matmul dot_S5x1024_S5x4096_S1024x4096_0_0_1_1_n_n none L R (constant (F := Ideal) S1024x4096 .f32 0x00000000#32) (ix2 r n)
      = ∑ k : Fin 5, L (ix2 k r) * R (ix2 k n) := by
  simp only [matmul]
  rw [Ideal.matmul_constant_zero_apply,
    ← Equiv.sum_comp (contrEquiv1 dot_S5x1024_S5x4096_S1024x4096_0_0_1_1_n_n 5 rfl rfl).symm]
  refine Finset.sum_congr rfl fun k _ => ?_
  have hk := contrEquiv1_symm_val dot_S5x1024_S5x4096_S1024x4096_0_0_1_1_n_n 5 rfl rfl k
  have el : dot_S5x1024_S5x4096_S1024x4096_0_0_1_1_n_n.lhsIdx (ix2 r n)
      ((contrEquiv1 dot_S5x1024_S5x4096_S1024x4096_0_0_1_1_n_n 5 rfl rfl).symm k) = ix2 k r := funext fun a => Fin.ext (by
    match a with
    | ⟨0, _⟩ => exact (dot_S5x1024_S5x4096_S1024x4096_0_0_1_1_n_n.lhsIdx_val_of_single rfl _ _).trans hk
    | ⟨1, _⟩ => exact lhsIdx_one _ _)
  have er : dot_S5x1024_S5x4096_S1024x4096_0_0_1_1_n_n.rhsIdx (ix2 r n)
      ((contrEquiv1 dot_S5x1024_S5x4096_S1024x4096_0_0_1_1_n_n 5 rfl rfl).symm k) = ix2 k n := funext fun a => Fin.ext (by
    match a with
    | ⟨0, _⟩ => exact (dot_S5x1024_S5x4096_S1024x4096_0_0_1_1_n_n.rhsIdx_val_of_single rfl _ _).trans hk
    | ⟨1, _⟩ => exact rhsIdx_one _ _)
  rw [el, er]

/-! ## The tile of squared distances -/

/-- Whatever the two operands are, if their five rows read as the augmented rows of the two clouds — the tile's points, their
    squared lengths, ones on the left; `-2` times the cloud's points, ones, their squared lengths on the right — the
    product of their narrowed copies (narrowing is the identity on extended reals) at `(r, n)` is the five-term squared
    distance. -/
private theorem kdist_of_rows (p : Fin 3 → Fin 4096 → EReal) (q : Fin 3 → Fin 1024 → EReal)
    (L : FVec Ideal S5x1024 .f32) (R : FVec Ideal S5x4096 .f32) (hb : FTy.bits .bf16 < FTy.bits .f32) (r : Fin 1024) (n : Fin 4096)
    (hL : ∀ d : Fin 3, L (ix2 (⟨d.val, by omega⟩ : Fin 5) r) = q d r)
    (hL3 : L (ix2 (3 : Fin 5) r) = Cert.Chamfer.sqn q r) (hL4 : L (ix2 (4 : Fin 5) r) = ((1 : ℝ) : EReal))
    (hR : ∀ d : Fin 3, R (ix2 (⟨d.val, by omega⟩ : Fin 5) n) = ((-2 : ℝ) : EReal) * p d n)
    (hR3 : R (ix2 (3 : Fin 5) n) = ((1 : ℝ) : EReal)) (hR4 : R (ix2 (4 : Fin 5) n) = Cert.Chamfer.sqn p n) :
    matmul dot_S5x1024_S5x4096_S1024x4096_0_0_1_1_n_n none (truncf .bf16 L hb) (truncf .bf16 R hb)
        (constant (F := Ideal) S1024x4096 .f32 0x00000000#32) (ix2 r n)
      = Cert.Chamfer.kdist p q r n := by
  have hL0 : L (ix2 (0 : Fin 5) r) = q 0 r := hL 0
  have hL1 : L (ix2 (1 : Fin 5) r) = q 1 r := hL 1
  have hL2 : L (ix2 (2 : Fin 5) r) = q 2 r := hL 2
  have hR0 : R (ix2 (0 : Fin 5) n) = ((-2 : ℝ) : EReal) * p 0 n := hR 0
  have hR1 : R (ix2 (1 : Fin 5) n) = ((-2 : ℝ) : EReal) * p 1 n := hR 1
  have hR2 : R (ix2 (2 : Fin 5) n) = ((-2 : ℝ) : EReal) * p 2 n := hR 2
  refine (matmul5_apply _ _ r n).trans ?_
  show ∑ k : Fin 5, L (ix2 k r) * R (ix2 k n) = _
  rw [Fin.sum_univ_five, hL0, hL1, hL2, hL3, hL4, hR0, hR1, hR2, hR3, hR4]
  unfold Cert.Chamfer.kdist
  rw [Fin.sum_univ_three]

theorem pay2_apply (x0 : Vec Ideal S1x3x4096 .f32) (x1 : Vec Ideal S1x3x1024 .f32) (r : Fin 1024) (n : Fin 4096) :
    k0_pay2 (F := Ideal) x0 x1 (ix2 r n)
      = Cert.Chamfer.kdist (fun d n => x0 (ix3 0 d n)) (fun d r => x1 (ix3 0 d r)) r n := by
  -- the two blocks without their unit axis, read at a point
  have e0 : ∀ (d : Fin 3) (m : Fin 4096), shapeCast S3x4096 x0 shapeCasts_S1x3x4096_S3x4096 (ix2 d m) = x0 (ix3 0 d m) :=
    fun d m => shapeCast_1ab_ab_apply x0 shapeCasts_S1x3x4096_S3x4096 d m
  have e1 : ∀ (d : Fin 3) (m : Fin 1024), shapeCast S3x1024 x1 shapeCasts_S1x3x1024_S3x1024 (ix2 d m) = x1 (ix3 0 d m) :=
    fun d m => shapeCast_1ab_ab_apply x1 shapeCasts_S1x3x1024_S3x1024 d m
  unfold k0_pay2
  refine kdist_of_rows (fun d n => x0 (ix3 0 d n)) (fun d r => x1 (ix3 0 d r)) _ _ bitsLt_bf16_f32 r n
    (fun d => ?_) ?_ ?_ (fun d => ?_) ?_ ?_
  · -- rows 0–2 on the left: the tile's points
    exact (stack5_block_apply _ _ _ concatenates_S3x1024_S1x1024_S1x1024_S5x1024_d0 d r).trans (e1 d r)
  · -- row 3 on the left: the tile's squared lengths
    refine (stack5_row3_apply _ _ _ concatenates_S3x1024_S1x1024_S1x1024_S5x1024_d0 r).trans ?_
    refine (shapeCast_a_1a_apply _ shapeCasts_S1024_S1x1024 0 r).trans ?_
    refine (sum_rows3_apply _ _ reduces_S3x1024_S1024 _ _ r).trans ?_
    exact Finset.sum_congr rfl fun d _ => congrArg₂ (· * ·) (e1 d r) (e1 d r)
  · -- row 4 on the left: ones
    refine (stack5_row4_apply _ _ _ concatenates_S3x1024_S1x1024_S1x1024_S5x1024_d0 r).trans ?_
    exact ofBits_one_f32
  · -- rows 0–2 on the right: -2 times the cloud's points
    refine (stack5_block_apply _ _ _ concatenates_S3x4096_S1x4096_S1x4096_S5x4096_d0 d n).trans ?_
    exact congrArg₂ (· * ·) ofBits_negtwo_f32 (e0 d n)
  · -- row 3 on the right: ones
    refine (stack5_row3_apply _ _ _ concatenates_S3x4096_S1x4096_S1x4096_S5x4096_d0 n).trans ?_
    exact ofBits_one_f32
  · -- row 4 on the right: the cloud's squared lengths
    refine (stack5_row4_apply _ _ _ concatenates_S3x4096_S1x4096_S1x4096_S5x4096_d0 n).trans ?_
    refine (shapeCast_a_1a_apply _ shapeCasts_S4096_S1x4096 0 n).trans ?_
    refine (sum_rows3_apply _ _ reduces_S3x4096_S4096 _ _ n).trans ?_
    exact Finset.sum_congr rfl fun d _ => congrArg₂ (· * ·) (e0 d n) (e0 d n)
/-! ## Its two minima -/

theorem pay3_apply (x0 : Vec Ideal S1x3x4096 .f32) (x1 : Vec Ideal S1x3x1024 .f32) (r : Fin 1024) :
    k0_pay3 (F := Ideal) x0 x1 (ix3 0 0 r)
      = Finset.univ.inf fun n : Fin 4096 => Cert.Chamfer.kdist (fun d n => x0 (ix3 0 d n)) (fun d r => x1 (ix3 0 d r)) r n := by
  unfold k0_pay3
  refine (shapeCast_a_11a_apply _ shapeCasts_S1024_S1x1x1024 0 0 r).trans ?_
  refine (shapeCast_1a_a_apply _ shapeCasts_S1x1024_S1024 r).trans ?_
  refine (transpose_ix2_apply _ transposes_S1024x1_p1_0_S1x1024 0 r).trans ?_
  refine (shapeCast_a_a1_apply _ shapeCasts_S1024_S1024x1 r 0).trans ?_
  refine (min_cols_apply _ reduces_S1024x4096_S1024 _ _ r).trans ?_
  exact Finset.inf_congr rfl fun n _ => pay2_apply x0 x1 r n

theorem pay4_apply (x0 : Vec Ideal S1x3x4096 .f32) (x1 : Vec Ideal S1x3x1024 .f32) (n : Fin 4096) :
    k0_pay4 (F := Ideal) x0 x1 (ix2 0 n)
      = Finset.univ.inf fun r : Fin 1024 => Cert.Chamfer.kdist (fun d n => x0 (ix3 0 d n)) (fun d r => x1 (ix3 0 d r)) r n := by
  unfold k0_pay4
  refine (shapeCast_a_1a_apply _ shapeCasts_S4096_S1x4096 0 n).trans ?_
  refine (min_rows_apply _ reduces_S1024x4096_S4096 _ _ n).trans ?_
  exact Finset.inf_congr rfl fun r _ => pay2_apply x0 x1 r n

end Cert.Chamfer.Ker

end
-- ==== Proof.Algebra.lean ====
/-
  The two written forms of the squared distance agree on clouds of real coordinates, and the infimum over a cloud's
  4096 points is the minimum of the infima over its four tiles of 1024.

  On real coordinates the kernel's contraction (q_m ; |q_m|² ; 1) · (−2·p_n ; 1 ; |p_n|²) expands to
  Σ_d −2·q_{d,m}·p_{d,n} + |q_m|² + |p_n|², which is the Gram expansion |p_n|² + |q_m|² − 2·⟨p_n, q_m⟩ by
  commutativity and distributivity in ℝ. The identity needs every coordinate real: with an infinite coordinate the
  two sides can be ∞ − ∞ in different arrangements.
-/
import proofs.«144960_j69045894250969_2_alg».proof.Proof.Spec

noncomputable section

open scoped BigOperators

namespace Cert.Chamfer

/-- A cloud is finite when every coordinate of every point is a real number. -/
def Fin3Real {N : ℕ} (a : Fin 3 → Fin N → EReal) : Prop := ∀ d n, ∃ x : ℝ, a d n = (x : EReal)

/-- On finite clouds the kernel's five-row contraction is the reference's Gram expansion. -/
theorem kdist_eq_rdist {N M : ℕ} (p : Fin 3 → Fin N → EReal) (q : Fin 3 → Fin M → EReal)
    (hp : Fin3Real p) (hq : Fin3Real q) (m : Fin M) (n : Fin N) : kdist p q m n = rdist p q n m := by
  choose P hP using hp
  choose Q hQ using hq
  unfold kdist rdist sqn
  simp only [Fin.sum_univ_three, hP, hQ]
  simp only [← EReal.coe_mul, ← EReal.coe_add, ← EReal.coe_sub]
  congr 1
  ring

/-- A tile of a finite cloud is finite. -/
theorem tile_real (q : Fin 3 → Fin 4096 → EReal) (hq : Fin3Real q) (j : Fin 4) : Fin3Real (tile q j) :=
  fun d r => hq d (tileIdx j r)

/-- Every point of the cloud lies in one of the four tiles: point `m` is point `m % 1024` of tile `m / 1024`. -/
private theorem exists_tileIdx (m : Fin 4096) : ∃ (j : Fin 4) (r : Fin 1024), m = tileIdx j r :=
  ⟨⟨m.val / 1024, by omega⟩, ⟨m.val % 1024, Nat.mod_lt _ (by norm_num)⟩, Fin.ext (by simp only [tileIdx]; omega)⟩

/-- The minimum of the four tile infima is the infimum over the whole cloud. -/
theorem inf_tiles (f : Fin 4096 → EReal) :
    min (min (min (Finset.univ.inf fun r : Fin 1024 => f (tileIdx 0 r))
                  (Finset.univ.inf fun r : Fin 1024 => f (tileIdx 1 r)))
             (Finset.univ.inf fun r : Fin 1024 => f (tileIdx 2 r)))
        (Finset.univ.inf fun r : Fin 1024 => f (tileIdx 3 r)) = Finset.univ.inf f := by
  apply le_antisymm
  · -- the four-fold minimum is below each tile's infimum, hence below every entry
    refine Finset.le_inf fun m _ => ?_
    obtain ⟨j, r, rfl⟩ := exists_tileIdx m
    have hr : (Finset.univ.inf fun r : Fin 1024 => f (tileIdx j r)) ≤ f (tileIdx j r) :=
      Finset.inf_le (Finset.mem_univ r)
    refine le_trans ?_ hr
    fin_cases j
    · exact le_trans (min_le_left _ _) (le_trans (min_le_left _ _) (min_le_left _ _))
    · exact le_trans (min_le_left _ _) (le_trans (min_le_left _ _) (min_le_right _ _))
    · exact le_trans (min_le_left _ _) (min_le_right _ _)
    · exact min_le_right _ _
  · -- the whole infimum is below every entry of every tile
    refine le_min (le_min (le_min ?_ ?_) ?_) ?_ <;>
      exact Finset.le_inf fun r _ => Finset.inf_le (Finset.mem_univ _)

/-- The kernel's distance against a tile of `q` is the reference's distance against the tile's point in `q`. -/
private theorem kdist_tile (p q : Fin 3 → Fin 4096 → EReal) (hp : Fin3Real p) (hq : Fin3Real q)
    (j : Fin 4) (r : Fin 1024) (n : Fin 4096) : kdist p (tile q j) r n = rdist p q n (tileIdx j r) := by
  rw [kdist_eq_rdist p (tile q j) hp (tile_real q hq j) r n]
  rfl

/-- Nearest point of `q` to point `n` of `p`: the tile-by-tile minimum of the kernel's distances is the
    infimum of the reference's distances over all of `q`. -/
theorem minx_forms (p q : Fin 3 → Fin 4096 → EReal) (hp : Fin3Real p) (hq : Fin3Real q) (n : Fin 4096) :
    min (min (min (Finset.univ.inf fun r : Fin 1024 => kdist p (tile q 0) r n)
                  (Finset.univ.inf fun r : Fin 1024 => kdist p (tile q 1) r n))
             (Finset.univ.inf fun r : Fin 1024 => kdist p (tile q 2) r n))
        (Finset.univ.inf fun r : Fin 1024 => kdist p (tile q 3) r n)
      = Finset.univ.inf fun m : Fin 4096 => rdist p q n m := by
  simp only [kdist_tile p q hp hq]
  exact inf_tiles fun m => rdist p q n m

/-- Nearest point of `p` to point `r` of tile `j` of `q`: the same infimum in both forms. -/
theorem miny_forms (p q : Fin 3 → Fin 4096 → EReal) (hp : Fin3Real p) (hq : Fin3Real q) (j : Fin 4) (r : Fin 1024) :
    (Finset.univ.inf fun n : Fin 4096 => kdist p (tile q j) r n)
      = Finset.univ.inf fun n : Fin 4096 => rdist p q n (tileIdx j r) :=
  Finset.inf_congr rfl fun n _ => kdist_tile p q hp hq j r n

end Cert.Chamfer

end
-- ==== Proof.SpecArrays.lean ====
/-
  The two nearest-neighbour arrays as whole arrays, one entry per batch and point.

  Entry `(b, n)` of the first array is the infimum, over the points `m` of batch `b` of the second cloud, of the squared
  distance from point `n` of batch `b` of the first cloud; entry `(b, m)` of the second array is the infimum over the
  points `n` of the first cloud of the squared distance to point `m` of the second. Both are written with the Gram
  expansion `rdist`. An index's two coordinates are re-read as numbers below 8 and below 4096, so that the batch and
  the point are typed by those literal bounds.
-/
import proofs.«144960_j69045894250969_2_alg».proof.Proof.Spec

noncomputable section

open scoped BigOperators

namespace Cert.Chamfer

open Idealize.ShloMosaic Idealize.ShloMosaic.ValueIdx

/-- For each point of the first cloud, the infimum of its squared distances to the second cloud's points. -/
def MX (P Q : FVec Ideal S8x3x4096 .f32) : FVec Ideal S8x4096 .f32 := fun i =>
  Finset.univ.inf fun m : Fin 4096 =>
    rdist (cloud P ⟨(i 0).val, (i 0).isLt⟩) (cloud Q ⟨(i 0).val, (i 0).isLt⟩) ⟨(i 1).val, (i 1).isLt⟩ m

/-- For each point of the second cloud, the infimum of its squared distances to the first cloud's points. -/
def MY (P Q : FVec Ideal S8x3x4096 .f32) : FVec Ideal S8x4096 .f32 := fun i =>
  Finset.univ.inf fun n : Fin 4096 =>
    rdist (cloud P ⟨(i 0).val, (i 0).isLt⟩) (cloud Q ⟨(i 0).val, (i 0).isLt⟩) n ⟨(i 1).val, (i 1).isLt⟩

/-- The first array at batch `b`, point `n`. -/
theorem MX_apply (P Q : FVec Ideal S8x3x4096 .f32) (b : Fin 8) (n : Fin 4096) :
    MX P Q (ix2 b n) = Finset.univ.inf fun m : Fin 4096 => rdist (cloud P b) (cloud Q b) n m := rfl

/-- The second array at batch `b`, point `m`. -/
theorem MY_apply (P Q : FVec Ideal S8x3x4096 .f32) (b : Fin 8) (m : Fin 4096) :
    MY P Q (ix2 b m) = Finset.univ.inf fun n : Fin 4096 => rdist (cloud P b) (cloud Q b) n m := rfl

end Cert.Chamfer

end
-- ==== Proof.KernelIdeal.Value.lean ====
/-
  The kernel's two result arrays after the run, at the ideal instance: the reference's two nearest-neighbour arrays.

  At point `t` (batch `b`, tile `j`) the body has the whole first cloud of the batch and tile `j` of the second.
  The second output's buffer gets, for each point `r` of the tile, the infimum over the first cloud of the squared
  distance: one block of the array of nearest first-cloud points. The scratch holds, after tile `j`, the minimum over
  tiles `0..j` of the tiles' column minima, by induction on the point; at the batch's last tile that is the infimum
  over the whole second cloud, and it is what the first output's block receives. The two forms of the squared
  distance agree because every coordinate is a real number.
-/
import proofs.«144960_j69045894250969_2_alg».proof.Proof.KernelIdeal.Pieces
import proofs.«144960_j69045894250969_2_alg».proof.Proof.KernelIdeal.Cover
import proofs.«144960_j69045894250969_2_alg».proof.Proof.Payloads
import proofs.«144960_j69045894250969_2_alg».proof.Proof.Algebra
import proofs.«144960_j69045894250969_2_alg».proof.Proof.SpecArrays

set_option maxRecDepth 16384

noncomputable section

namespace Cert.KernelIdeal.Val

open Cert.KernelIdeal Cert.KernelIdeal.Gen Cert.KernelIdeal.Body Cert.KernelIdeal.Blocks Cert.Chamfer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The two clouds as the region finds them. -/
abbrev P : FVec Ideal Cert.Chamfer.S8x3x4096 .f32 := V (F := Ideal) m c main_arg0
abbrev Q : FVec Ideal Cert.Chamfer.S8x3x4096 .f32 := V (F := Ideal) m c main_arg1

/-- Column minima of tile `j` of batch `b`: for each point `n` of the first cloud, its nearest point of the tile. -/
def colMin (b : Fin 8) (j : Fin 4) (n : Fin 4096) : EReal :=
  Finset.univ.inf fun r : Fin 1024 => kdist (cloud (P m c) b) (tile (cloud (Q m c) b) j) r n

/-- The running minimum of `f 0, …, f k` (indices taken mod 4). -/
def accMin (f : Fin 4 → EReal) : ℕ → EReal
  | 0 => f 0
  | k + 1 => min (accMin f k) (f ⟨(k + 1) % 4, Nat.mod_lt _ (by decide)⟩)

theorem accMin_first (f : Fin 4 → EReal) (t : Fin cfg0.N) (h0 : t.val % 4 = 0) : accMin f (t.val % 4) = f (tileOf t) := by
  have e : tileOf t = (0 : Fin 4) := Fin.ext h0
  rw [e, h0]; rfl

theorem accMin_next (f : Fin 4 → EReal) (t : Fin cfg0.N) (h0 : ¬ t.val % 4 = 0) :
    accMin f (t.val % 4) = min (accMin f ((t.val - 1) % 4)) (f (tileOf t)) := by
  obtain ⟨k, hk⟩ : ∃ k, t.val % 4 = k + 1 := Nat.exists_eq_succ_of_ne_zero h0
  have hk' : (t.val - 1) % 4 = k := by omega
  rw [hk, hk']
  show min (accMin f k) (f ⟨(k + 1) % 4, _⟩) = min (accMin f k) (f (tileOf t))
  congr 2
  exact Fin.ext (show (k + 1) % 4 = t.val % 4 by omega)

theorem blk0_cloud (t : Fin cfg0.N) :
    (fun (d : Fin 3) (n : Fin 4096) => iblk m c 0 t (ix3 (0 : Fin 1) d n)) = cloud (P m c) (batch t) :=
  funext fun d => funext fun n => iblk0_apply m c t d n
theorem blk1_tile (t : Fin cfg0.N) :
    (fun (d : Fin 3) (r : Fin 1024) => iblk m c 1 t (ix3 (0 : Fin 1) d r)) = tile (cloud (Q m c) (batch t)) (tileOf t) :=
  funext fun d => funext fun r => iblk1_apply m c t d r

/-- The tile's column minima, as the body computes them from the point's blocks. -/
theorem pay4_at (t : Fin cfg0.N) (n : Fin 4096) :
    k0_pay4 (F := Ideal) (iblk m c 0 t) (iblk m c 1 t) (ix2 (0 : Fin 1) n) = colMin m c (batch t) (tileOf t) n := by
  refine (Ker.pay4_apply (iblk m c 0 t) (iblk m c 1 t) n).trans ?_
  unfold colMin
  rw [← blk0_cloud m c t, ← blk1_tile m c t]

/-- The tile's row minima. -/
theorem pay3_at (t : Fin cfg0.N) (r : Fin 1024) :
    k0_pay3 (F := Ideal) (iblk m c 0 t) (iblk m c 1 t) (ix3 (0 : Fin 1) (0 : Fin 1) r)
      = Finset.univ.inf fun n : Fin 4096 => kdist (cloud (P m c) (batch t)) (tile (cloud (Q m c) (batch t)) (tileOf t)) r n := by
  refine (Ker.pay3_apply (iblk m c 0 t) (iblk m c 1 t) r).trans ?_
  rw [← blk0_cloud m c t, ← blk1_tile m c t]

theorem batch_pred (n : ℕ) (hn : n + 1 < cfg0.N) (h0 : ¬ (n + 1) % 4 = 0) :
    batch ⟨n, Nat.lt_of_succ_lt hn⟩ = batch ⟨n + 1, hn⟩ :=
  Fin.ext (show n / 4 = (n + 1) / 4 by omega)

/-- The scratch after a batch's first tile: the tile's column minima. -/
theorem scratch_first (t : Fin cfg0.N) (h0 : t.val % 4 = 0) (k : Fin 4096) :
    (outsAt m c t.val t.isLt).2.2 (ix2 (0 : Fin 1) k) = colMin m c (batch t) (tileOf t) k := by
  have h3 : ¬ t.val % 4 = 3 := by omega
  rw [outsAt_First m c t h0 h3]
  dsimp only
  refine (congrFun (sout_First_eq c (grid0.coords t) (ms0 t) (hs0 t) (ms1 t) (hs1 t) (ms2 t) (hs2 t) (ms3 t) (hs3 t) scM (Memref.isWhole_whole _) ((hcondFirst t).mpr h0) (fun h => (hcondLater t).mp h h0) (fun h => h3 ((hcondLast t).mp h)) (iblk m c 0 t) (iblk m c 1 t)) (ix2 (0 : Fin 1) k)).trans ?_
  rw [Ker.pay5_eq]
  exact pay4_at m c t k

/-- The scratch after a later tile: the tile's column minima folded into what the point before left. -/
theorem scratch_later (t : Fin cfg0.N) (h0 : ¬ t.val % 4 = 0) (k : Fin 4096) :
    (outsAt m c t.val t.isLt).2.2 (ix2 (0 : Fin 1) k)
      = min ((outsAt m c (t.val - 1) (Nat.lt_of_le_of_lt (Nat.sub_le _ _) t.isLt)).2.2 (ix2 (0 : Fin 1) k)) (colMin m c (batch t) (tileOf t) k) := by
  by_cases h3 : t.val % 4 = 3
  · rw [outsAt_Last m c t h0 h3]
    dsimp only
    refine (congrFun (sout_Last_eq c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2) (ix2 (0 : Fin 1) k)).trans ?_
    refine (Ker.pay6_apply (iblk m c 0 t) (iblk m c 1 t) (outsAt m c (t.val - 1) (Nat.lt_of_le_of_lt (Nat.sub_le _ _) t.isLt)).2.2 k).trans ?_
    exact congrArg (fun z => min _ z) (pay4_at m c t k)
  · rw [outsAt_Later m c t h0 h3]
    dsimp only
    refine (congrFun (sout_Later_eq c (grid0.coords t) (ms0 t) (hs0 t) (ms1 t) (hs1 t) (ms2 t) (hs2 t) (ms3 t) (hs3 t) scM (Memref.isWhole_whole _) (fun h => h0 ((hcondFirst t).mp h)) ((hcondLater t).mpr h0) (fun h => h3 ((hcondLast t).mp h)) (iblk m c 0 t) (iblk m c 1 t) (outsAt m c (t.val - 1) (Nat.lt_of_le_of_lt (Nat.sub_le _ _) t.isLt)).2.2) (ix2 (0 : Fin 1) k)).trans ?_
    refine (Ker.pay6_apply (iblk m c 0 t) (iblk m c 1 t) (outsAt m c (t.val - 1) (Nat.lt_of_le_of_lt (Nat.sub_le _ _) t.isLt)).2.2 k).trans ?_
    exact congrArg (fun z => min _ z) (pay4_at m c t k)

/-- THE SCRATCH after each point: the running minimum, over the batch's tiles so far, of the tiles' column minima. -/
theorem scratch_at : ∀ (n : ℕ) (hn : n < cfg0.N) (k : Fin 4096),
    (outsAt m c n hn).2.2 (ix2 (0 : Fin 1) k) = accMin (fun j => colMin m c (batch ⟨n, hn⟩) j k) (n % 4) := by
  intro n
  induction n with
  | zero =>
    intro hn k
    have h0 : (⟨0, hn⟩ : Fin cfg0.N).val % 4 = 0 := Nat.zero_mod 4
    exact (scratch_first m c ⟨0, hn⟩ h0 k).trans (accMin_first (fun j => colMin m c (batch ⟨0, hn⟩) j k) ⟨0, hn⟩ h0).symm
  | succ n ih =>
    intro hn k
    by_cases h0 : (n + 1) % 4 = 0
    · exact (scratch_first m c ⟨n + 1, hn⟩ h0 k).trans (accMin_first (fun j => colMin m c (batch ⟨n + 1, hn⟩) j k) ⟨n + 1, hn⟩ h0).symm
    · have ih' := ih (Nat.lt_of_succ_lt hn) k
      rw [batch_pred n hn h0] at ih'
      refine (scratch_later m c ⟨n + 1, hn⟩ h0 k).trans ?_
      rw [accMin_next (fun j => colMin m c (batch ⟨n + 1, hn⟩) j k) ⟨n + 1, hn⟩ h0]
      exact congrArg (fun z => min z _) ih'

/-- THE SECOND OUTPUT'S BUFFER after any point: the tile's row minima. -/
theorem out3_at (t : Fin cfg0.N) (r : Fin 1024) :
    (outsAt m c t.val t.isLt).2.1 (ix3 (0 : Fin 1) (0 : Fin 1) r)
      = Finset.univ.inf fun n : Fin 4096 => kdist (cloud (P m c) (batch t)) (tile (cloud (Q m c) (batch t)) (tileOf t)) r n := by
  by_cases h0 : t.val % 4 = 0
  · have h3 : ¬ t.val % 4 = 3 := by omega
    rw [outsAt_First m c t h0 h3]
    dsimp only
    refine (congrFun (out3_First_eq c (grid0.coords t) (ms0 t) (hs0 t) (ms1 t) (hs1 t) (ms2 t) (hs2 t) (ms3 t) (hs3 t) scM (Memref.isWhole_whole _) ((hcondFirst t).mpr h0) (fun h => (hcondLater t).mp h h0) (fun h => h3 ((hcondLast t).mp h)) (iblk m c 0 t) (iblk m c 1 t)) (ix3 (0 : Fin 1) (0 : Fin 1) r)).trans ?_
    exact pay3_at m c t r
  · by_cases h3 : t.val % 4 = 3
    · rw [outsAt_Last m c t h0 h3]
      dsimp only
      refine (congrFun (out3_Last_eq c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2) (ix3 (0 : Fin 1) (0 : Fin 1) r)).trans ?_
      exact pay3_at m c t r
    · rw [outsAt_Later m c t h0 h3]
      dsimp only
      refine (congrFun (out3_Later_eq c (grid0.coords t) (ms0 t) (hs0 t) (ms1 t) (hs1 t) (ms2 t) (hs2 t) (ms3 t) (hs3 t) scM (Memref.isWhole_whole _) (fun h => h0 ((hcondFirst t).mp h)) ((hcondLater t).mpr h0) (fun h => h3 ((hcondLast t).mp h)) (iblk m c 0 t) (iblk m c 1 t) (outsAt m c (t.val - 1) (Nat.lt_of_le_of_lt (Nat.sub_le _ _) t.isLt)).2.2) (ix3 (0 : Fin 1) (0 : Fin 1) r)).trans ?_
      exact pay3_at m c t r

/-- THE FIRST OUTPUT'S BUFFER after a batch's last tile: the scratch just stored, i.e. the running minimum over all
    four tiles. -/
theorem out2_at (t : Fin cfg0.N) (h3 : t.val % 4 = 3) (n : Fin 4096) :
    (outsAt m c t.val t.isLt).1 (ix3 (0 : Fin 1) (0 : Fin 1) n) = accMin (fun j => colMin m c (batch t) j n) 3 := by
  have h0 : ¬ t.val % 4 = 0 := by omega
  have hs := scratch_at m c t.val t.isLt n
  rw [h3] at hs
  refine Eq.trans ?_ hs
  rw [outsAt_Last m c t h0 h3]
  dsimp only
  refine (congrFun (out2_Last_eq c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2) (ix3 (0 : Fin 1) (0 : Fin 1) n)).trans ?_
  refine (Ker.pay1_apply (k0_pay6 (F := Ideal) (iblk m c 0 t) (iblk m c 1 t) (outsAt m c (t.val - 1) (Nat.lt_of_le_of_lt (Nat.sub_le _ _) t.isLt)).2.2) n).trans ?_
  exact (congrFun (sout_Last_eq c (grid0.coords t) (ms0 t) (hs0 t) (ms1 t) (hs1 t) (ms2 t) (hs2 t) (ms3 t) (hs3 t) scM (Memref.isWhole_whole _) (fun h => h0 ((hcondFirst t).mp h)) ((hcondLater t).mpr h0) ((hcondLast t).mpr h3) (iblk m c 0 t) (iblk m c 1 t) (outsAt m c (t.val - 1) (Nat.lt_of_le_of_lt (Nat.sub_le _ _) t.isLt)).2.2) (ix2 (0 : Fin 1) n)).symm

/-- An index of a [1,1,N] block is its last coordinate. -/
theorem idx_unit3 {N : ℕ} (y : (⟨3, ![1, 1, N]⟩ : Shape).Idx) : y = ix3 (0 : Fin 1) (0 : Fin 1) (y 2) := by
  funext a
  match a with
  | ⟨0, _⟩ => exact Subsingleton.elim (α := Fin 1) _ _
  | ⟨1, _⟩ => exact Subsingleton.elim (α := Fin 1) _ _
  | ⟨2, _⟩ => rfl

/-! ## With every coordinate a real number -/

variable (hP : ∀ i, ∃ x : ℝ, P m c i = (x : EReal)) (hQ : ∀ i, ∃ x : ℝ, Q m c i = (x : EReal))

include hP in
theorem realP (b : Fin 8) : Fin3Real (cloud (P m c) b) := fun d n => hP (ix3 b d n)
include hQ in
theorem realQ (b : Fin 8) : Fin3Real (cloud (Q m c) b) := fun d n => hQ (ix3 b d n)

/-- The first result array: each first-cloud point's nearest second-cloud point, one row per batch. -/
def G2 : FVec Ideal S8x1x4096 .f32 := fun i => MX (P m c) (Q m c) (ix2 (⟨(i 0).val, (i 0).isLt⟩ : Fin 8) (⟨(i 2).val, (i 2).isLt⟩ : Fin 4096))
/-- The second: each second-cloud point's nearest first-cloud point. -/
def G3 : FVec Ideal S8x1x4096 .f32 := fun i => MY (P m c) (Q m c) (ix2 (⟨(i 0).val, (i 0).isLt⟩ : Fin 8) (⟨(i 2).val, (i 2).isLt⟩ : Fin 4096))

theorem G2_apply (b : Fin 8) (n : Fin 4096) : G2 m c (ix3 b (0 : Fin 1) n) = MX (P m c) (Q m c) (ix2 b n) := rfl
theorem G3_apply (b : Fin 8) (k : Fin 4096) : G3 m c (ix3 b (0 : Fin 1) k) = MY (P m c) (Q m c) (ix2 b k) := rfl

include hP hQ in
/-- What a batch's last tile writes back is the batch's row of the first result array. -/
theorem flushed2_eq (t : Fin cfg0.N) (hf : (cfg0.win 2).flush t = true) :
    (dats m 0 c).flushed 2 t = ((cfg0.win 2).blk t).view.read (Elt Ideal) (G2 m c) := by
  have h3 : t.val % 4 = 3 := (flush0_2 t).mp hf
  show (cfg0.win 2).cut (grid0.coords t) ((dats m 0 c).after 2 t) = _
  rw [after2]
  funext y
  obtain ⟨n, rfl⟩ : ∃ n : Fin 4096, y = ix3 (0 : Fin 1) (0 : Fin 1) n := ⟨y 2, idx_unit3 y⟩
  show (outsAt m c t.val t.isLt).1 (ix3 (0 : Fin 1) (0 : Fin 1) n) = G2 m c (((cfg0.win 2).blk t).view.emb (ix3 (0 : Fin 1) (0 : Fin 1) n))
  rw [out2_at m c t h3, emb2, G2_apply, MX_apply]
  exact minx_forms _ _ (realP m c hP _) (realQ m c hQ _) n

include hP hQ in
/-- What any point writes back is its tile's part of the batch's row of the second result array. -/
theorem flushed3_eq (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after3]
  funext y
  obtain ⟨r, rfl⟩ : ∃ r : Fin 1024, y = ix3 (0 : Fin 1) (0 : Fin 1) r := ⟨y 2, idx_unit3 y⟩
  show (outsAt m c t.val t.isLt).2.1 (ix3 (0 : Fin 1) (0 : Fin 1) r) = G3 m c (((cfg0.win 3).blk t).view.emb (ix3 (0 : Fin 1) (0 : Fin 1) r))
  rw [out3_at m c t r, emb3, G3_apply, MY_apply]
  exact miny_forms _ _ (realP m c hP _) (realQ m c hQ _) (tileOf t) r

include hP hQ in
theorem final2 : (dats m 0 c).arrAt 2 cfg0.N = G2 m c :=
  (dats m 0 c).arrAt_eq_of_cover 2 (G2 m c) (flushed2_eq m c hP hQ) cover2
include hP hQ in
theorem final3 : (dats m 0 c).arrAt 3 cfg0.N = G3 m c :=
  (dats m 0 c).arrAt_eq_of_cover 3 (G3 m c) (flushed3_eq m c hP hQ) cover3

end Cert.KernelIdeal.Val

end
-- ==== Proof.Tail.lean ====
/-
  What the program's last lines compute from the two nearest-neighbour arrays its region leaves and from the two
  remaining arguments. After the region the program flattens each [8, 1, 4096] result array to [8, 4096], takes the
  mean of each and adds the two means (the reconstruction term), forms the KL term of the two [8, 256] arguments,
  and adds the reconstruction term to one times the KL term. Operation for operation these are the specification's
  `recon`, `kld` and `total`, applied to the flattened result arrays and to the two arguments as launched.

  The lines are evaluated from the contents the region leaves: each result array at what the region wrote there,
  every other buffer as it was when the region was entered. The two result arrays are the region's third and fourth
  windows; the two [8, 256] arguments are no window's array, so they are still the launch contents.
-/
import proofs.«144960_j69045894250969_2_alg».proof.Proof.Gen.KernelIdeal.Frame
import proofs.«144960_j69045894250969_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.Chamfer.KerTail

open Cert.KernelIdeal Cert.KernelIdeal.Gen Idealize.ShloMosaic Idealize.ShloMosaic.ValueIdx

variable (m : (ℓ : Loc nD τ sig) → Buf (Elt Ideal) ℓ)
  (dats : (p : Fin 1) → (c : Dev nD) → Pipeline.Dat τ (Elt Ideal) Unit ℕ (UR sig nD τ) ℕ (cfgs p) c) (c : Dev nD)

/-- Where the region ends, the first result array holds what the region's third window wrote. -/
private theorem exit_v0_0 :
    Pipeline.withArrays (cfgs 0).spec c (V0 (F := Ideal) m c) (fun w => (dats 0 c).arrAt w (cfgs 0).N)
      (Proc.devRef .tc main_v0_0) = (dats 0 c).arrAt 2 cfg0.N :=
  Pipeline.withArrays_arr spec0 launch0.win.arr_inj c _ _ 2

/-- And the second result array what its fourth window wrote. -/
private theorem exit_v0_1 :
    Pipeline.withArrays (cfgs 0).spec c (V0 (F := Ideal) m c) (fun w => (dats 0 c).arrAt w (cfgs 0).N)
      (Proc.devRef .tc main_v0_1) = (dats 0 c).arrAt 3 cfg0.N :=
  Pipeline.withArrays_arr spec0 launch0.win.arr_inj c _ _ 3

/-- The third argument is no window's array: where the region ends it is as launched. -/
private theorem exit_arg2 :
    Pipeline.withArrays (cfgs 0).spec c (V0 (F := Ideal) m c) (fun w => (dats 0 c).arrAt w (cfgs 0).N)
      (Proc.devRef .tc main_arg2) = m ((c.tc : Thread nD τ).loc main_arg2) :=
  (Pipeline.withArrays_of_ne _ c (V0 m c) _ main_arg2
    (by exact (by decide : ∀ w, Pipeline.arrRef spec0 w ≠ main_arg2))).trans (V_main_arg2 m c)

/-- Likewise the fourth. -/
private theorem exit_arg3 :
    Pipeline.withArrays (cfgs 0).spec c (V0 (F := Ideal) m c) (fun w => (dats 0 c).arrAt w (cfgs 0).N)
      (Proc.devRef .tc main_arg3) = m ((c.tc : Thread nD τ).loc main_arg3) :=
  (Pipeline.withArrays_of_ne _ c (V0 m c) _ main_arg3
    (by exact (by decide : ∀ w, Pipeline.arrRef spec0 w ≠ main_arg3))).trans (V_main_arg3 m c)

/-- The sum of the two means: the reconstruction term of the flattened result arrays. -/
private theorem result_recon :
    Pipeline.afterTail₀ cfgs dats 0 (V0 (F := Ideal) m) [hostOps1] c main_v7
      = Cert.Chamfer.recon reducesTo_S8x4096_S_d0_1 h_S_
          (shapeCast S8x4096 ((dats 0 c).arrAt 2 cfg0.N) shapeCasts_S8x1x4096_S8x4096)
          (shapeCast S8x4096 ((dats 0 c).arrAt 3 cfg0.N) shapeCasts_S8x1x4096_S8x4096) := by
  unfold Pipeline.afterTail₀
  show StableHlo.after hostOps1 _ (Proc.devRef .tc main_v7) = _
  after_results_simp
  rw [exit_v0_0, exit_v0_1]
  rfl

/-- The KL term of the third and fourth arguments. -/
private theorem result_kld :
    Pipeline.afterTail₀ cfgs dats 0 (V0 (F := Ideal) m) [hostOps1] c main_v16
      = Cert.Chamfer.kld bcast_S_S8x256 reducesTo_S8x256_S_d0_1 h_S_
          (m ((c.tc : Thread nD τ).loc main_arg2)) (m ((c.tc : Thread nD τ).loc main_arg3)) := by
  unfold Pipeline.afterTail₀
  show StableHlo.after hostOps1 _ (Proc.devRef .tc main_v16) = _
  after_results_simp
  rw [exit_arg2, exit_arg3]
  rfl

/-- The total: the reconstruction term plus one times the KL term. -/
private theorem result_total :
    Pipeline.afterTail₀ cfgs dats 0 (V0 (F := Ideal) m) [hostOps1] c main_v18
      = Cert.Chamfer.total
          (Cert.Chamfer.recon reducesTo_S8x4096_S_d0_1 h_S_
            (shapeCast S8x4096 ((dats 0 c).arrAt 2 cfg0.N) shapeCasts_S8x1x4096_S8x4096)
            (shapeCast S8x4096 ((dats 0 c).arrAt 3 cfg0.N) shapeCasts_S8x1x4096_S8x4096))
          (Cert.Chamfer.kld bcast_S_S8x256 reducesTo_S8x256_S_d0_1 h_S_
            (m ((c.tc : Thread nD τ).loc main_arg2)) (m ((c.tc : Thread nD τ).loc main_arg3))) := by
  unfold Pipeline.afterTail₀
  show StableHlo.after hostOps1 _ (Proc.devRef .tc main_v18) = _
  after_results_simp
  rw [exit_v0_0, exit_v0_1, exit_arg2, exit_arg3]
  rfl

/-- The program's three results after its last lines, for any proof data of the region: the total, the
    reconstruction term and the KL term of the flattened result arrays and the launch arguments. -/
theorem results :
    Pipeline.afterTail₀ cfgs dats 0 (V0 (F := Ideal) m) [hostOps1] c main_v18
      = Cert.Chamfer.total
          (Cert.Chamfer.recon reducesTo_S8x4096_S_d0_1 h_S_
            (shapeCast S8x4096 ((dats 0 c).arrAt 2 cfg0.N) shapeCasts_S8x1x4096_S8x4096)
            (shapeCast S8x4096 ((dats 0 c).arrAt 3 cfg0.N) shapeCasts_S8x1x4096_S8x4096))
          (Cert.Chamfer.kld bcast_S_S8x256 reducesTo_S8x256_S_d0_1 h_S_
            (m ((c.tc : Thread nD τ).loc main_arg2)) (m ((c.tc : Thread nD τ).loc main_arg3)))
    ∧ Pipeline.afterTail₀ cfgs dats 0 (V0 (F := Ideal) m) [hostOps1] c main_v7
      = Cert.Chamfer.recon reducesTo_S8x4096_S_d0_1 h_S_
          (shapeCast S8x4096 ((dats 0 c).arrAt 2 cfg0.N) shapeCasts_S8x1x4096_S8x4096)
          (shapeCast S8x4096 ((dats 0 c).arrAt 3 cfg0.N) shapeCasts_S8x1x4096_S8x4096)
    ∧ Pipeline.afterTail₀ cfgs dats 0 (V0 (F := Ideal) m) [hostOps1] c main_v16
      = Cert.Chamfer.kld bcast_S_S8x256 reducesTo_S8x256_S_d0_1 h_S_
          (m ((c.tc : Thread nD τ).loc main_arg2)) (m ((c.tc : Thread nD τ).loc main_arg3)) :=
  ⟨result_total m dats c, result_recon m dats c, result_kld m dats c⟩

/-- Flattening [8, 1, 4096] to [8, 4096] keeps the row-major position: entry (b, n) of the flattened array is
    entry (b, 0, n) of the operand, since (b·1 + 0)·4096 + n = b·4096 + n. -/
theorem reshape_apply (X : Vec Ideal S8x1x4096 .f32) (b : Fin 8) (n : Fin 4096) :
    shapeCast S8x4096 X shapeCasts_S8x1x4096_S8x4096 (ix2 b n) = X (ix3 b 0 n) :=
  shapeCast_apply X _ _ _ (by
    rw [Shape.rowMajor_val_three, Shape.rowMajor_val_two]
    show (b.val * 1 + 0) * 4096 + n.val = b.val * 4096 + n.val
    omega)

end Cert.Chamfer.KerTail

end
-- ==== Proof.KernelIdeal.Run.lean ====
/-
  The idealized kernel program's run: its three results as the shared tail of the two nearest-neighbour arrays.

  After the region the host lines reshape the region's two result arrays to [8,4096] and take the means, the KL term
  and the total; the result arrays are the reference's two arrays, so the three results are the tail of those.
-/
import proofs.«144960_j69045894250969_2_alg».proof.Proof.KernelIdeal.Value
import proofs.«144960_j69045894250969_2_alg».proof.Proof.Tail

set_option maxRecDepth 16384

noncomputable section

namespace Cert.KernelIdeal.Val

open Cert.KernelIdeal Cert.KernelIdeal.Gen Cert.KernelIdeal.Body Cert.KernelIdeal.Blocks Cert.Chamfer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The first result array, reshaped to one row per batch, is the array of nearest second-cloud points. -/
theorem reshaped2 (c : Dev nD) (hP : ∀ i, ∃ x : ℝ, P m c i = (x : EReal)) (hQ : ∀ i, ∃ x : ℝ, Q m c i = (x : EReal)) :
    shapeCast S8x4096 ((dats m 0 c).arrAt 2 cfg0.N) shapeCasts_S8x1x4096_S8x4096 = MX (P m c) (Q m c) := by
  rw [final2 m c hP hQ]
  funext i
  obtain ⟨b, n, rfl⟩ : ∃ (b : Fin 8) (n : Fin 4096), i = ix2 b n := ⟨i 0, i 1, eq_ix2 i⟩
  rw [Cert.Chamfer.KerTail.reshape_apply, G2_apply]

/-- The second, reshaped, is the array of nearest first-cloud points. -/
theorem reshaped3 (c : Dev nD) (hP : ∀ i, ∃ x : ℝ, P m c i = (x : EReal)) (hQ : ∀ i, ∃ x : ℝ, Q m c i = (x : EReal)) :
    shapeCast S8x4096 ((dats m 0 c).arrAt 3 cfg0.N) shapeCasts_S8x1x4096_S8x4096 = MY (P m c) (Q m c) := by
  rw [final3 m c hP hQ]
  funext i
  obtain ⟨b, n, rfl⟩ : ∃ (b : Fin 8) (n : Fin 4096), i = ix2 b n := ⟨i 0, i 1, eq_ix2 i⟩
  rw [Cert.Chamfer.KerTail.reshape_apply, G3_apply]

/-- The run, read: total, reconstruction term and KL term as the shared tail of the two arrays; arguments unchanged. -/
theorem run (hP : ∀ c i, ∃ x : ℝ, P m c i = (x : EReal)) (hQ : ∀ c i, ∃ x : ℝ, Q m c i = (x : EReal)) :
    θ_run defs (onTc (τ := τ) (main (F := Ideal))) ⟨m, fun _ => 0, ρ⟩ (fun r => ∀ c : Dev nD,
      r.2.mem ((c.tc : Thread nD τ).loc main_v18)
          = total (recon reducesTo_S8x4096_S_d0_1 h_S_ (MX (P m c) (Q m c)) (MY (P m c) (Q m c)))
              (kld bcast_S_S8x256 reducesTo_S8x256_S_d0_1 h_S_ (m ((c.tc : Thread nD τ).loc main_arg2)) (m ((c.tc : Thread nD τ).loc main_arg3)))
      ∧ r.2.mem ((c.tc : Thread nD τ).loc main_v7)
          = recon reducesTo_S8x4096_S_d0_1 h_S_ (MX (P m c) (Q m c)) (MY (P m c) (Q m c))
      ∧ r.2.mem ((c.tc : Thread nD τ).loc main_v16)
          = kld bcast_S_S8x256 reducesTo_S8x256_S_d0_1 h_S_ (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main (F := Ideal) m ρ)
  obtain ⟨t18, t7, t16⟩ := Cert.Chamfer.KerTail.results m (dats m) c
  rw [reshaped2 m c (hP c) (hQ c), reshaped3 m c (hP c) (hQ c)] at t18 t7
  exact ⟨((h c).2 main_v18 (Pipeline.mem_restRefs_of main_v18 (by decide) (by decide))).trans t18,
    ((h c).2 main_v7 (Pipeline.mem_restRefs_of main_v7 (by decide) (by decide))).trans t7,
    ((h c).2 main_v16 (Pipeline.mem_restRefs_of main_v16 (by decide) (by decide))).trans t16,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.KernelIdeal.Val

end
-- ==== Proof.RefSide.lean ====
/-
  The reference's two nearest-neighbour arrays read at an index, and its three results as the shared tail of them.

  The reference transposes each cloud to one row per point, sums the squares of a point's three coordinates, contracts
  the two transposed clouds over the coordinate axis, and combines the three as |p_n|² + |q_m|² − 2·⟨p_n, q_m⟩ over the
  whole 4096 × 4096 grid of pairs. Each nearest-neighbour array is then a minimum over one axis of that grid, started
  from +∞; over the extended reals such a minimum is the infimum of the row (or column) of squared distances.
-/
import proofs.«144960_j69045894250969_2_alg».proof.Proof.Gen.ReferenceIdeal.Read
import proofs.«144960_j69045894250969_2_alg».proof.Proof.Spec
import proofs.«144960_j69045894250969_2_alg».proof.Defs
import Idealize.ShloMosaic.PureOps.Ideal.Laws
import Idealize.ShloMosaic.Lib.ValueIdx
import Idealize.ShloMosaic.Lib.Pipeline.Value

noncomputable section

open scoped BigOperators

namespace Cert.Chamfer.Ref

open Idealize.ShloMosaic Idealize.SL.Sem Idealize.ShloMosaic.ValueIdx Cert.ReferenceIdeal Cert.ReferenceIdeal.Gen Cert.ReferenceIdeal.Read

/-! ## Two float words as extended reals -/

/-- The word `0x40000000` (2.0 in binary32) denotes the real number 2. -/
theorem ofBits_two : Ideal.ofBits .f32 0x40000000#32 = ((2 : ℝ) : EReal) := by
  simp [Ideal.ofBits, Ideal.ieee, -EReal.coe_mul]; norm_num

/-- The word `0x7F800000` (binary32's +∞) denotes the top of the extended reals. -/
theorem ofBits_top : Ideal.ofBits .f32 0x7F800000#32 = (⊤ : EReal) := by
  simp [Ideal.ofBits, Ideal.ieee]

/-! ## The squared lengths and the Gram term -/

/-- The sum of squares of the transposed first cloud at point `n` of batch `b` is that point's squared length. -/
theorem sqP_apply (P : (⟨S8x3x4096, .f32⟩ : BufTy).Contents (Elt Ideal)) (b : Fin 8) (n : Fin 4096) :
    val_main_v3 (F := Ideal) P (ix2 b n) = sqn (cloud P b) n := by
  rw [val_main_v3_apply, val_main_cst_apply, Ideal.ofBits_def, Ideal.ofBits_zero_f32, zero_add]
  refine Finset.sum_congr rfl fun k _ => ?_
  rw [val_main_v2_apply, val_main_v0_apply, Ideal.mulf_def]
  have e : idx_main_v0 (idx_main_v3 (ix2 b n) k) = ix3 b k n :=
    funext fun a => Fin.ext (by match a with | ⟨0, _⟩ => rfl | ⟨1, _⟩ => rfl | ⟨2, _⟩ => rfl)
  rw [e]; rfl

/-- The same for the second cloud at point `m`. -/
theorem sqQ_apply (Q : (⟨S8x3x4096, .f32⟩ : BufTy).Contents (Elt Ideal)) (b : Fin 8) (m : Fin 4096) :
    val_main_v5 (F := Ideal) Q (ix2 b m) = sqn (cloud Q b) m := by
  rw [val_main_v5_apply, val_main_cst_0_apply, Ideal.ofBits_def, Ideal.ofBits_zero_f32, zero_add]
  refine Finset.sum_congr rfl fun k _ => ?_
  rw [val_main_v4_apply, val_main_v1_apply, Ideal.mulf_def]
  have e : idx_main_v1 (idx_main_v5 (ix2 b m) k) = ix3 b k m :=
    funext fun a => Fin.ext (by match a with | ⟨0, _⟩ => rfl | ⟨1, _⟩ => rfl | ⟨2, _⟩ => rfl)
  rw [e]; rfl

/-- The batched contraction at the pair `(n, m)` is the inner product of point `n` of `P` with point `m` of `Q`. -/
theorem gram_apply (P Q : (⟨S8x3x4096, .f32⟩ : BufTy).Contents (Elt Ideal)) (b : Fin 8) (n m : Fin 4096) :
    val_main_v6 (F := Ideal) P Q (ix3 b n m) = ∑ d : Fin 3, cloud P b d n * cloud Q b d m := by
  rw [val_main_v6_apply]
  refine Finset.sum_congr rfl fun k _ => ?_
  rw [val_main_v0_apply, val_main_v1_apply]
  have el : idx_main_v0 (lidx_main_v6 (ix3 b n m) k) = ix3 b k n :=
    funext fun a => Fin.ext (by match a with | ⟨0, _⟩ => rfl | ⟨1, _⟩ => rfl | ⟨2, _⟩ => rfl)
  have er : idx_main_v1 (ridx_main_v6 (ix3 b n m) k) = ix3 b k m :=
    funext fun a => Fin.ext (by match a with | ⟨0, _⟩ => rfl | ⟨1, _⟩ => rfl | ⟨2, _⟩ => rfl)
  rw [el, er]; rfl

/-! ## The grid of squared distances -/

/-- The reference's grid at `(b, n, m)` is the Gram expansion of the squared distance between point `n` of batch `b`
    of `P` and point `m` of batch `b` of `Q`. -/
theorem dist_apply (P Q : (⟨S8x3x4096, .f32⟩ : BufTy).Contents (Elt Ideal)) (b : Fin 8) (n m : Fin 4096) :
    val_main_v14 (F := Ideal) P Q (ix3 b n m) = rdist (cloud P b) (cloud Q b) n m := by
  have e9 : idx_main_v7 (idx_main_v9 (ix3 b n m)) = ix2 b n :=
    funext fun a => Fin.ext (by match a with | ⟨0, _⟩ => rfl | ⟨1, _⟩ => rfl)
  have e10 : idx_main_v8 (idx_main_v10 (ix3 b n m)) = ix2 b m :=
    funext fun a => Fin.ext (by match a with | ⟨0, _⟩ => rfl | ⟨1, _⟩ => rfl)
  rw [val_main_v14_apply, val_main_v11_apply, val_main_v13_apply, val_main_v9_apply, val_main_v10_apply,
    val_main_v7_apply, val_main_v8_apply, val_main_v12_apply, val_main_cst_1_apply, e9, e10, sqP_apply, sqQ_apply,
    gram_apply, Ideal.ofBits_def, ofBits_two, Ideal.subf_def, Ideal.addf_def, Ideal.mulf_def]
  rfl

/-! ## The two nearest-neighbour arrays -/

/-- The shape fact that names the source index over a result index of the minimum along the last axis. -/
theorem red_d2 : S8x4096x4096.Reduces [2] S8x4096 := by decide

/-- The same for the minimum along the middle axis. -/
theorem red_d1 : S8x4096x4096.Reduces [1] S8x4096 := by decide

/-- Over result index `(b, n)`, coordinate `m` of the dropped last axis is the grid index `(b, n, m)`. -/
theorem lift_d2 (b : Fin 8) (n m : Fin 4096) : red_d2.lift (ix2 b n) m = ix3 b n m :=
  funext fun a => Fin.ext (by match a with | ⟨0, _⟩ => rfl | ⟨1, _⟩ => rfl | ⟨2, _⟩ => rfl)

/-- Over result index `(b, m)`, coordinate `n` of the dropped middle axis is the grid index `(b, n, m)`. -/
theorem lift_d1 (b : Fin 8) (m n : Fin 4096) : red_d1.lift (ix2 b m) n = ix3 b n m :=
  funext fun a => Fin.ext (by match a with | ⟨0, _⟩ => rfl | ⟨1, _⟩ => rfl | ⟨2, _⟩ => rfl)

/-- The minimum over the second cloud's points, started from +∞, is the infimum of point `n`'s row of squared
    distances. -/
theorem minx_apply (P Q : (⟨S8x3x4096, .f32⟩ : BufTy).Contents (Elt Ideal)) (b : Fin 8) (n : Fin 4096) :
    val_main_v15 (F := Ideal) P Q (ix2 b n)
      = Finset.univ.inf fun m : Fin 4096 => rdist (cloud P b) (cloud Q b) n m := by
  unfold val_main_v15
  rw [Host.reduce_eq_fold_single (FloatOps.minimumf (F := Ideal) (φ := .f32)) (val_main_v14 (F := Ideal) P Q)
    (val_main_cst_2 (F := Ideal)) reducesTo_S8x4096x4096_S8x4096_d2 red_d2 h_S_ (ix2 b n)]
  have hf : (val_main_v14 (F := Ideal) P Q ∘ red_d2.lift (ix2 b n))
      = fun m : Fin 4096 => rdist (cloud P b) (cloud Q b) n m :=
    funext fun m => (congrArg (val_main_v14 (F := Ideal) P Q) (lift_d2 b n m)).trans (dist_apply P Q b n m)
  have ht : val_main_cst_2 (F := Ideal) (Shape.Idx.first h_S_) = (⊤ : EReal) :=
    (val_main_cst_2_apply _).trans ofBits_top
  rw [hf, ht]
  exact fold_min_top Finset.univ _

/-- The minimum over the first cloud's points, started from +∞, is the infimum of point `m`'s column of squared
    distances. -/
theorem miny_apply (P Q : (⟨S8x3x4096, .f32⟩ : BufTy).Contents (Elt Ideal)) (b : Fin 8) (m : Fin 4096) :
    val_main_v16 (F := Ideal) P Q (ix2 b m)
      = Finset.univ.inf fun n : Fin 4096 => rdist (cloud P b) (cloud Q b) n m := by
  unfold val_main_v16
  rw [Host.reduce_eq_fold_single (FloatOps.minimumf (F := Ideal) (φ := .f32)) (val_main_v14 (F := Ideal) P Q)
    (val_main_cst_3 (F := Ideal)) reducesTo_S8x4096x4096_S8x4096_d1 red_d1 h_S_ (ix2 b m)]
  have hf : (val_main_v14 (F := Ideal) P Q ∘ red_d1.lift (ix2 b m))
      = fun n : Fin 4096 => rdist (cloud P b) (cloud Q b) n m :=
    funext fun n => (congrArg (val_main_v14 (F := Ideal) P Q) (lift_d1 b m n)).trans (dist_apply P Q b n m)
  have ht : val_main_cst_3 (F := Ideal) (Shape.Idx.first h_S_) = (⊤ : EReal) :=
    (val_main_cst_3_apply _).trans ofBits_top
  rw [hf, ht]
  exact fold_min_top Finset.univ _

/-! ## The three results -/

/-- The reference's results are the shared tail of its two nearest-neighbour arrays and of the two latent arrays:
    the operations after the two minima are the tail's own, in the same order. -/
theorem results (P Q : (⟨S8x3x4096, .f32⟩ : BufTy).Contents (Elt Ideal))
    (mu lv : (⟨S8x256, .f32⟩ : BufTy).Contents (Elt Ideal)) :
    val_main_v32 (F := Ideal) P Q mu lv
        = total (recon reducesTo_S8x4096_S_d0_1 h_S_ (val_main_v15 P Q) (val_main_v16 P Q))
            (kld bcast_S_S8x256 reducesTo_S8x256_S_d0_1 h_S_ mu lv)
      ∧ val_main_v21 (F := Ideal) P Q
        = recon reducesTo_S8x4096_S_d0_1 h_S_ (val_main_v15 P Q) (val_main_v16 P Q)
      ∧ val_main_v30 (F := Ideal) mu lv = kld bcast_S_S8x256 reducesTo_S8x256_S_d0_1 h_S_ mu lv :=
  ⟨rfl, rfl, rfl⟩

/-! ## The run -/

/-- From any memory with zero counters every weakly fair execution of the reference terminates with its three results
    at the stages' values of the four argument arrays, and the arguments unchanged. -/
theorem run [Cert.ReferenceIdeal.Facts] (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v32)
          = val_main_v32 (F := Ideal) (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_v21)
          = val_main_v21 (F := Ideal) (m' ((c.tc : Thread nD τ).loc main_arg0)) (m' ((c.tc : Thread nD τ).loc main_arg1))
      ∧ r.2.mem ((c.tc : Thread nD τ).loc main_v30)
          = val_main_v30 (F := Ideal) (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun _ h c =>
      ⟨(h c).1.trans (val_main_v32_eq _ _ _ _), (h c).2.1.trans (val_main_v21_eq _ _),
        (h c).2.2.1.trans (val_main_v30_eq _ _), (h c).2.2.2⟩)
    (Cert.ReferenceIdeal.Value.run (F := Ideal) m' ρ')

/-- The reference runs and leaves its four argument arrays unchanged: its run with the results dropped. -/
theorem frame [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

end Cert.Chamfer.Ref

end
-- ==== Proof.RefFinal.lean ====
/-
  The reference's results over the two nearest-neighbour arrays of the specification.

  Each of the reference's two minima, read entry by entry, is the specification's whole-array infimum; so its three
  results are the shared tail applied to those two arrays and to the two latent arrays.
-/
import proofs.«144960_j69045894250969_2_alg».proof.Proof.RefSide
import proofs.«144960_j69045894250969_2_alg».proof.Proof.SpecArrays

noncomputable section

open scoped BigOperators

namespace Cert.Chamfer.Ref

open Idealize.ShloMosaic Idealize.SL.Sem Idealize.ShloMosaic.ValueIdx Cert.ReferenceIdeal Cert.ReferenceIdeal.Gen Cert.ReferenceIdeal.Read

/-- The minimum along the last axis of the grid is the first nearest-neighbour array. -/
theorem val15_eq (P Q : (⟨S8x3x4096, .f32⟩ : BufTy).Contents (Elt Ideal)) :
    val_main_v15 (F := Ideal) P Q = MX P Q := by
  funext i
  obtain ⟨b, n, rfl⟩ : ∃ (b : Fin 8) (n : Fin 4096), i = ix2 b n := ⟨i 0, i 1, eq_ix2 i⟩
  exact (minx_apply P Q b n).trans (MX_apply P Q b n).symm

/-- The minimum along the middle axis of the grid is the second nearest-neighbour array. -/
theorem val16_eq (P Q : (⟨S8x3x4096, .f32⟩ : BufTy).Contents (Elt Ideal)) :
    val_main_v16 (F := Ideal) P Q = MY P Q := by
  funext i
  obtain ⟨b, m, rfl⟩ : ∃ (b : Fin 8) (m : Fin 4096), i = ix2 b m := ⟨i 0, i 1, eq_ix2 i⟩
  exact (miny_apply P Q b m).trans (MY_apply P Q b m).symm

/-- From any memory with zero counters every weakly fair execution of the reference terminates with its three results
    the shared tail of the specification's two nearest-neighbour arrays of the first two arguments and of the last two
    arguments, and the arguments unchanged. -/
theorem run_final [Cert.ReferenceIdeal.Facts] (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v32)
          = total
              (recon reducesTo_S8x4096_S_d0_1 h_S_
                (MX (m' ((c.tc : Thread nD τ).loc main_arg0)) (m' ((c.tc : Thread nD τ).loc main_arg1)))
                (MY (m' ((c.tc : Thread nD τ).loc main_arg0)) (m' ((c.tc : Thread nD τ).loc main_arg1))))
              (kld bcast_S_S8x256 reducesTo_S8x256_S_d0_1 h_S_
                (m' ((c.tc : Thread nD τ).loc main_arg2)) (m' ((c.tc : Thread nD τ).loc main_arg3)))
      ∧ r.2.mem ((c.tc : Thread nD τ).loc main_v21)
          = recon reducesTo_S8x4096_S_d0_1 h_S_
              (MX (m' ((c.tc : Thread nD τ).loc main_arg0)) (m' ((c.tc : Thread nD τ).loc main_arg1)))
              (MY (m' ((c.tc : Thread nD τ).loc main_arg0)) (m' ((c.tc : Thread nD τ).loc main_arg1)))
      ∧ r.2.mem ((c.tc : Thread nD τ).loc main_v30)
          = kld bcast_S_S8x256 reducesTo_S8x256_S_d0_1 h_S_
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun _ h c => by
      obtain ⟨h32, h21, h30, hargs⟩ := h c
      have hr := results (m' ((c.tc : Thread nD τ).loc main_arg0)) (m' ((c.tc : Thread nD τ).loc main_arg1))
        (m' ((c.tc : Thread nD τ).loc main_arg2)) (m' ((c.tc : Thread nD τ).loc main_arg3))
      rw [val15_eq, val16_eq] at hr
      exact ⟨h32.trans hr.1, h21.trans hr.2.1, h30.trans hr.2.2, hargs⟩)
    (run m' ρ')

end Cert.Chamfer.Ref

end
-- ==== Proof.Finite.lean ====
/-
  The precondition says that every entry of each argument array is smaller in absolute value than +∞; on the
  extended reals that is the statement that every entry is a real number. This is the finiteness the algebraic
  identity between the two forms of the squared distance needs, for the two point clouds.

  The printed predicate is a conjunction of four "all entries satisfy |x| < +∞" tests, one per argument: the
  conjunction is split, the test of the array in question is read at an index, and an extended real with
  max x (−x) < ⊤ is neither ⊤ nor ⊥.
-/
import proofs.«144960_j69045894250969_2_alg».proof.Defs
import proofs.«144960_j69045894250969_2_alg».proof.Proof.Spec
import Idealize.ShloMosaic.Lib.ReduceAll

noncomputable section

namespace Cert.Chamfer

open Idealize.ShloMosaic Idealize.SL.Sem

/-- The rank-0 shape has a single index. -/
instance : Subsingleton Cert.Pre_finite_inputs.S_.Idx := ⟨fun a b => funext fun d => d.elim0⟩

/-- An extended real whose absolute value max x (−x) lies strictly below +∞ (the word 0x7F800000) is a real:
    at ⊤ the absolute value is ⊤, at ⊥ it is −⊥ = ⊤, and ⊤ < ⊤ is false. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The predicate holding of four arrays makes every entry of the first two real: the outer conjunctions are
    dropped down to the first two tests, and each test is read at an index. -/
private theorem real_of_pre [hPre : Cert.Pre_finite_inputs.Facts]
    (a0 a1 : FVec Ideal Cert.Pre_finite_inputs.S8x3x4096 .f32) (a2 a3 : FVec Ideal Cert.Pre_finite_inputs.S8x256 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn, Cert.Pre_finite_inputs.fn_part1] at h0
  obtain ⟨h012, -⟩ := IntOp.andi_eq_one.1 h0
  obtain ⟨h01, -⟩ := IntOp.andi_eq_one.1 h012
  obtain ⟨hv3, hv7⟩ := IntOp.andi_eq_one.1 h01
  exact ⟨fun i => real_of_abs_lt_inf (a0 i) (Host.reduce_andi_all _ _ _ _ _ hv3 i),
    fun i => real_of_abs_lt_inf (a1 i) (Host.reduce_andi_all _ _ _ _ _ hv7 i)⟩

/-- Under the precondition every coordinate of the first cloud array is a real. -/
theorem finite_arg0 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x3x4096.Idx) :
    ∃ x : ℝ, m ((c.tc : Thread Cert.KernelIdeal.nD Cert.KernelIdeal.τ).loc Cert.KernelIdeal.main_arg0) i = (x : EReal) :=
  (real_of_pre _ _ _ _ (h c)).1 i

/-- Under the precondition every coordinate of the second cloud array is a real. -/
theorem finite_arg1 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x3x4096.Idx) :
    ∃ x : ℝ, m ((c.tc : Thread Cert.KernelIdeal.nD Cert.KernelIdeal.τ).loc Cert.KernelIdeal.main_arg1) i = (x : EReal) :=
  (real_of_pre _ _ _ _ (h c)).2 i

end Cert.Chamfer

end
-- ==== Proof.lean ====
/-
  The certificate of the chamfer-plus-KL loss kernel against its jnp reference.

  The kernel computes, per batch, the squared distances between the 4096 points of one cloud and a tile of 1024
  points of the other as ONE contraction over five augmented rows, takes the tile's row minima (written out at once)
  and column minima (folded into a scratch across the batch's four tiles and written out at the last), and the host
  lines after it take the two arrays' means, a KL term and the total. The reference computes the same squared
  distances by the Gram expansion over all pairs and the same minima, means, KL term and total.

  * The three frames: each program runs to the end, faults nowhere and leaves its arguments unchanged — the kernel
    programs by their region's body run point by point with the scratch carried in the region's invariant
    (Kernel/Frame, KernelIdeal/Frame), the reference by its run.
  * preserves: the idealization rewrote nothing.
  * algebraic: under the precondition every coordinate of the two clouds is a real number, so the two forms of the
    squared distance agree (distributivity on the reals); a minimum over four tiles of 1024 is the minimum over all
    4096; hence the kernel's two result arrays are the reference's (KernelIdeal/Value), and the tails are the same
    operations of them.
-/
import proofs.«144960_j69045894250969_2_alg».proof.Defs
import proofs.«144960_j69045894250969_2_alg».proof.Proof.Gen.Kernel
import proofs.«144960_j69045894250969_2_alg».proof.Proof.Gen.KernelIdeal
import proofs.«144960_j69045894250969_2_alg».proof.Proof.Gen.ReferenceIdeal
import proofs.«144960_j69045894250969_2_alg».proof.Proof.Gen.Pre_finite_inputs
import proofs.«144960_j69045894250969_2_alg».proof.Proof.Kernel.Frame
import proofs.«144960_j69045894250969_2_alg».proof.Proof.KernelIdeal.Run
import proofs.«144960_j69045894250969_2_alg».proof.Proof.RefFinal
import proofs.«144960_j69045894250969_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := Cert.Chamfer.Ref.frame

/-- Both idealized programs end at the shared tail of the two nearest-neighbour arrays of the (agreeing) clouds. -/
theorem algebraic : Cert.algebraic_KernelIdeal_ReferenceIdeal := by
  intro m ρ m' ρ' hpre hagree
  refine ⟨_, _, _, Cert.KernelIdeal.Val.run m ρ (fun c i => Cert.Chamfer.finite_arg0 m hpre c i)
    (fun c i => Cert.Chamfer.finite_arg1 m hpre c i), ?_⟩
  refine (θ_run Cert.ReferenceIdeal.defs _ _).mono (fun r h c => ?_) (Cert.Chamfer.Ref.run_final m' ρ')
  obtain ⟨e32, e21, e30, k0, k1, k2, k3⟩ := h c
  obtain ⟨a0, a1, a2, a3⟩ := hagree c
  rw [a0, a1, a2, a3] at e32
  rw [a0, a1] at e21
  rw [a2, a3] at e30
  exact ⟨e32, e21, e30, k0, k1, k2, k3⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
